-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x20x1000 : Shape := ⟨3, ![1024, 20, 1000]⟩
abbrev S1000x16 : Shape := ⟨2, ![1000, 16]⟩
abbrev S320x256 : Shape := ⟨2, ![320, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S1000x16 : S_.BroadcastsInDim S1000x16 (![] : Fin 0 → Fin S1000x16.rank)
  reducesTo_S1000x16_S_d0_1 : S1000x16.ReducesTo [0, 1] S_
  h_S_ : 0 < S_.numel
  bcast_S_S320x256 : S_.BroadcastsInDim S320x256 (![] : Fin 0 → Fin S320x256.rank)
  reducesTo_S320x256_S_d0_1 : S320x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : IVec S1024x20x1000 32) (main_arg1 : FVec F S1000x16 .f32) (main_arg2 : FVec F S320x256 .f32) (main_arg3 : FVec F S256 .f32) (main_arg4 : FVec F S256x128 .f32) (main_arg5 : FVec F S128 .f32) : IVec S_ 1 :=
  let main_v0 : FVec F S1000x16 .f32 := Host.absf main_arg1
  let main_cst : FVec F S_ .f32 := constant S_ .f32 0x7F800000#32
  let main_v1 : FVec F S1000x16 .f32 := broadcastInDim S1000x16 ![] bcast_S_S1000x16 main_cst
  let main_v2 : IVec S1000x16 1 := cmpf .olt main_v0 main_v1
  let main_c : IVec S_ 1 := constantI S_ 1 1#1
  let main_v3 : IVec S_ 1 := (fun x v => Host.reduce IntOp.andi x v reducesTo_S1000x16_S_d0_1 h_S_) main_v2 main_c
  let main_v4 : FVec F S320x256 .f32 := Host.absf main_arg2
  let main_cst_0 : FVec F S_ .f32 := constant S_ .f32 0x7F800000#32
  let main_v5 : FVec F S320x256 .f32 := broadcastInDim S320x256 ![] bcast_S_S320x256 main_cst_0
  let main_v6 : IVec S320x256 1 := cmpf .olt main_v4 main_v5
  let main_c_1 : IVec S_ 1 := constantI S_ 1 1#1
  let main_v7 : IVec S_ 1 := (fun x v => Host.reduce IntOp.andi x v reducesTo_S320x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S1024x20x1000 : Shape := ⟨3, ![1024, 20, 1000]⟩
abbrev S1000x16 : Shape := ⟨2, ![1000, 16]⟩
abbrev S320x256 : Shape := ⟨2, ![320, 256]⟩
abbrev S256 : Shape := ⟨1, ![256]⟩
abbrev S256x128 : Shape := ⟨2, ![256, 128]⟩
abbrev S128 : Shape := ⟨1, ![128]⟩
abbrev S20x16 : Shape := ⟨2, ![20, 16]⟩
abbrev S_ : Shape := ⟨0, ![]⟩
abbrev S1000x1 : Shape := ⟨2, ![1000, 1]⟩
abbrev S1000x15 : Shape := ⟨2, ![1000, 15]⟩
abbrev S1000x32 : Shape := ⟨2, ![1000, 32]⟩
abbrev S1x256 : Shape := ⟨2, ![1, 256]⟩
abbrev S1x128 : Shape := ⟨2, ![1, 128]⟩
abbrev S1024x128 : Shape := ⟨2, ![1024, 128]⟩
abbrev S128x20x1000 : Shape := ⟨3, ![128, 20, 1000]⟩
abbrev S128x128 : Shape := ⟨2, ![128, 128]⟩
abbrev S2560x1000 : Shape := ⟨2, ![2560, 1000]⟩
abbrev S2560x32 : Shape := ⟨2, ![2560, 32]⟩
abbrev S2560x16 : Shape := ⟨2, ![2560, 16]⟩
abbrev S2560x1 : Shape := ⟨2, ![2560, 1]⟩
abbrev S128x20x16 : Shape := ⟨3, ![128, 20, 16]⟩
abbrev S1x20x16 : Shape := ⟨3, ![1, 20, 16]⟩
abbrev S128x20x1 : Shape := ⟨3, ![128, 20, 1]⟩
abbrev S128x320 : Shape := ⟨2, ![128, 320]⟩
abbrev S128x256 : Shape := ⟨2, ![128, 256]⟩

abbrev nBuf : Space → Nat
  | .hbm => 15
  | .vmem => 10
  | .smem => 0
  | _ => 0

abbrev bufTy : (tb : Table) → Fin (tcTables nBuf tb) → BufTy
  | .hbm, ⟨0, _⟩ => ⟨S1024x20x1000, .i32⟩
  | .hbm, ⟨1, _⟩ => ⟨S1000x16, .f32⟩
  | .hbm, ⟨2, _⟩ => ⟨S320x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S20x16, .f32⟩
  | .hbm, ⟨7, _⟩ => ⟨S_, .f32⟩
  | .hbm, ⟨8, _⟩ => ⟨S1000x1, .f32⟩
  | .hbm, ⟨9, _⟩ => ⟨S_, .f32⟩
  | .hbm, ⟨10, _⟩ => ⟨S1000x15, .f32⟩
  | .hbm, ⟨11, _⟩ => ⟨S1000x32, .f32⟩
  | .hbm, ⟨12, _⟩ => ⟨S1x256, .f32⟩
  | .hbm, ⟨13, _⟩ => ⟨S1x128, .f32⟩
  | .hbm, ⟨14, _⟩ => ⟨S1024x128, .f32⟩
  | .local _ .vmem, ⟨0, _⟩ => ⟨S128x20x1000, .i32⟩
  | .local _ .vmem, ⟨1, _⟩ => ⟨S128x20x1000, .i32⟩
  | .local _ .vmem, ⟨2, _⟩ => ⟨S1000x32, .f32⟩
  | .local _ .vmem, ⟨3, _⟩ => ⟨S20x16, .f32⟩
  | .local _ .vmem, ⟨4, _⟩ => ⟨S320x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | _, _ => ⟨S1024x20x1000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x20x1000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S320x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1000x1 : S_.BroadcastsInDim S1000x1 (![] : Fin 0 → Fin S1000x1.rank)
  bcast_S_S1000x15 : S_.BroadcastsInDim S1000x15 (![] : Fin 0 → Fin S1000x15.rank)
  concatenates_S1000x16_S1000x1_S1000x15_S1000x32_d1 : Shape.Concatenates [S1000x16, S1000x1, S1000x15] S1000x32 1
  shapeCasts_S256_S1x256 : S256.ShapeCasts S1x256
  shapeCasts_S128_S1x128 : S128.ShapeCasts S1x128
  inb_S128x20x1000_S128x20x1000_0_0_0 : ∀ a, (![0, 0, 0] : Fin 3 → Nat) a + S128x20x1000.size a ≤ S128x20x1000.size a
  h_S128x20x1000 : 0 < S128x20x1000.numel
  shapeCasts_S128x20x1000_S2560x1000 : S128x20x1000.ShapeCasts S2560x1000
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  slices_S2560x32_o0_0_S2560x16 : S2560x32.Slices ![0, 0] S2560x16
  slices_S2560x32_o0_16_S2560x1 : S2560x32.Slices ![0, 16] S2560x1
  natLt_1_32 : 1 < 32
  shapeCasts_S2560x16_S128x20x16 : S2560x16.ShapeCasts S128x20x16
  inb_S20x16_S20x16_0_0 : ∀ a, (![0, 0] : Fin 2 → Nat) a + S20x16.size a ≤ S20x16.size a
  h_S20x16 : 0 < S20x16.numel
  shapeCasts_S20x16_S1x20x16 : S20x16.ShapeCasts S1x20x16
  shapeCasts_S2560x1_S128x20x1 : S2560x1.ShapeCasts S128x20x1
  broadcasts_S1x20x16_S128x20x16 : S1x20x16.Broadcasts S128x20x16
  broadcasts_S128x20x1_S128x20x16 : S128x20x1.Broadcasts S128x20x16
  shapeCasts_S128x20x16_S128x320 : S128x20x16.ShapeCasts S128x320
  inb_S320x256_S320x256_0_0 : ∀ a, (![0, 0] : Fin 2 → Nat) a + S320x256.size a ≤ S320x256.size a
  h_S320x256 : 0 < S320x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  dot_S2560x1000_S1000x32_S2560x32_1_0_0_1_n_n_wf : DotDims.WF S2560x1000 S1000x32 S2560x32 [1] [0] [0] [1] [] []
  dot_S128x320_S320x256_S128x256_1_0_0_1_n_n_wf : DotDims.WF S128x320 S320x256 S128x256 [1] [0] [0] [1] [] []
  dot_S128x256_S256x128_S128x128_1_0_0_1_n_n_wf : DotDims.WF S128x256 S256x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x20x1000.size a ≤ S1024x20x1000.size a
  hwx0_0 : ∀ i : grid0.Coords, EltTy.bits .i32 = 32 ∨ (Rect.block (s := S1024x20x1000) S128x20x1000.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x32.size a ≤ S1000x32.size a
  hwx0_1 : ∀ i : grid0.Coords, EltTy.bits .f32 = 32 ∨ (Rect.block (s := S1000x32) S1000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x16.size a ≤ S20x16.size a
  hwx0_2 : ∀ i : grid0.Coords, EltTy.bits .f32 = 32 ∨ (Rect.block (s := S20x16) S20x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x256.size a ≤ S320x256.size a
  hwx0_3 : ∀ i : grid0.Coords, EltTy.bits .f32 = 32 ∨ (Rect.block (s := S320x256) S320x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S1024x128.size a
  hwx0_7 : ∀ i : grid0.Coords, EltTy.bits .f32 = 32 ∨ (Rect.block (s := S1024x128) S128x128.size (cc0_transform_7 i) (hinb0_7 i)).WholeWords (EltTy.packing .f32)

variable [Facts₀]

def dot_S2560x1000_S1000x32_S2560x32_1_0_0_1_n_n : DotDims S2560x1000 S1000x32 S2560x32 where
  lhsContracting := [1]
  rhsContracting := [0]
  lhsNonContracting := [0]
  rhsNonContracting := [1]
  lhsBatch := []
  rhsBatch := []
  wf := dot_S2560x1000_S1000x32_S2560x32_1_0_0_1_n_n_wf
def dot_S128x320_S320x256_S128x256_1_0_0_1_n_n : DotDims S128x320 S320x256 S128x256 where
  lhsContracting := [1]
  rhsContracting := [0]
  lhsNonContracting := [0]
  rhsNonContracting := [1]
  lhsBatch := []
  rhsBatch := []
  wf := dot_S128x320_S320x256_S128x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

abbrev win0_0 : Pipeline.Window sig grid0 :=
  Pipeline.Window.ofSpec (Memref.whole main_arg0) S128x20x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1000x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst) S20x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S320x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x20x1000 : Shape := ⟨3, ![1024, 20, 1000]⟩
abbrev S1000x16 : Shape := ⟨2, ![1000, 16]⟩
abbrev S320x256 : Shape := ⟨2, ![320, 256]⟩
abbrev S256 : Shape := ⟨1, ![256]⟩
abbrev S256x128 : Shape := ⟨2, ![256, 128]⟩
abbrev S128 : Shape := ⟨1, ![128]⟩
abbrev S20x16 : Shape := ⟨2, ![20, 16]⟩
abbrev S1x20x16 : Shape := ⟨3, ![1, 20, 16]⟩
abbrev S1024x20x16 : Shape := ⟨3, ![1024, 20, 16]⟩
abbrev S_ : Shape := ⟨0, ![]⟩
abbrev S1024x20 : Shape := ⟨2, ![1024, 20]⟩
abbrev S1024x20x1 : Shape := ⟨3, ![1024, 20, 1]⟩
abbrev S1024x320 : Shape := ⟨2, ![1024, 320]⟩
abbrev S1024x256 : Shape := ⟨2, ![1024, 256]⟩
abbrev S1x256 : Shape := ⟨2, ![1, 256]⟩
abbrev S1024x128 : Shape := ⟨2, ![1024, 128]⟩
abbrev S1x128 : Shape := ⟨2, ![1, 128]⟩

abbrev nBuf : Space → Nat
  | .hbm => 36
  | .vmem => 0
  | .smem => 0
  | _ => 0

abbrev bufTy : (tb : Table) → Fin (tcTables nBuf tb) → BufTy
  | .hbm, ⟨0, _⟩ => ⟨S1024x20x1000, .i32⟩
  | .hbm, ⟨1, _⟩ => ⟨S1000x16, .f32⟩
  | .hbm, ⟨2, _⟩ => ⟨S320x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S20x16, .f32⟩
  | .hbm, ⟨7, _⟩ => ⟨S1x20x16, .f32⟩
  | .hbm, ⟨8, _⟩ => ⟨S1024x20x1000, .f32⟩
  | .hbm, ⟨9, _⟩ => ⟨S1024x20x16, .f32⟩
  | .hbm, ⟨10, _⟩ => ⟨S_, .f32⟩
  | .hbm, ⟨11, _⟩ => ⟨S_, .f32⟩
  | .hbm, ⟨12, _⟩ => ⟨S1024x20x16, .f32⟩
  | .hbm, ⟨13, _⟩ => ⟨S1024x20x16, .f32⟩
  | .hbm, ⟨14, _⟩ => ⟨S_, .f32⟩
  | .hbm, ⟨15, _⟩ => ⟨S1024x20, .f32⟩
  | .hbm, ⟨16, _⟩ => ⟨S_, .f32⟩
  | .hbm, ⟨17, _⟩ => ⟨S1024x20, .f32⟩
  | .hbm, ⟨18, _⟩ => ⟨S1024x20, .i1⟩
  | .hbm, ⟨19, _⟩ => ⟨S1024x20, .f32⟩
  | .hbm, ⟨20, _⟩ => ⟨S1024x20x1, .f32⟩
  | .hbm, ⟨21, _⟩ => ⟨S1024x20x16, .f32⟩
  | .hbm, ⟨22, _⟩ => ⟨S1024x20x16, .f32⟩
  | .hbm, ⟨23, _⟩ => ⟨S1024x20x16, .f32⟩
  | .hbm, ⟨24, _⟩ => ⟨S1024x20x16, .f32⟩
  | .hbm, ⟨25, _⟩ => ⟨S1024x320, .f32⟩
  | .hbm, ⟨26, _⟩ => ⟨S1024x256, .f32⟩
  | .hbm, ⟨27, _⟩ => ⟨S1x256, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S1024x128, .f32⟩
  | .hbm, ⟨32, _⟩ => ⟨S1x128, .f32⟩
  | .hbm, ⟨33, _⟩ => ⟨S1024x128, .f32⟩
  | .hbm, ⟨34, _⟩ => ⟨S1024x128, .f32⟩
  | .hbm, ⟨35, _⟩ => ⟨S1024x128, .f32⟩
  | _, _ => ⟨S1024x20x1000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S20x16_S1x20x16_1_2 : S20x16.BroadcastsInDim S1x20x16 (![1, 2] : Fin 2 → Fin S1x20x16.rank)
  bcast_S_S1024x20x16 : S_.BroadcastsInDim S1024x20x16 (![] : Fin 0 → Fin S1024x20x16.rank)
  reducesTo_S1024x20x1000_S1024x20_d2 : S1024x20x1000.ReducesTo [2] S1024x20
  h_S_ : 0 < S_.numel
  bcast_S_S1024x20 : S_.BroadcastsInDim S1024x20 (![] : Fin 0 → Fin S1024x20.rank)
  bcast_S1024x20_S1024x20x1_0_1 : S1024x20.BroadcastsInDim S1024x20x1 (![0, 1] : Fin 2 → Fin S1024x20x1.rank)
  bcast_S1x20x16_S1024x20x16_0_1_2 : S1x20x16.BroadcastsInDim S1024x20x16 (![0, 1, 2] : Fin 3 → Fin S1024x20x16.rank)
  bcast_S1024x20x1_S1024x20x16_0_1_2 : S1024x20x1.BroadcastsInDim S1024x20x16 (![0, 1, 2] : Fin 3 → Fin S1024x20x16.rank)
  shapeCasts_S1024x20x16_S1024x320 : S1024x20x16.ShapeCasts S1024x320
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  dot_S1024x20x1000_S1000x16_S1024x20x16_2_0_01_1_n_n_wf : DotDims.WF S1024x20x1000 S1000x16 S1024x20x16 [2] [0] [0, 1] [1] [] []
  dot_S1024x320_S320x256_S1024x256_1_0_0_1_n_n_wf : DotDims.WF S1024x320 S320x256 S1024x256 [1] [0] [0] [1] [] []
  dot_S1024x256_S256x128_S1024x128_1_0_0_1_n_n_wf : DotDims.WF S1024x256 S256x128 S1024x128 [1] [0] [0] [1] [] []

variable [Facts₀]

def dot_S1024x20x1000_S1000x16_S1024x20x16_2_0_01_1_n_n : DotDims S1024x20x1000 S1000x16 S1024x20x16 where
  lhsContracting := [2]
  rhsContracting := [0]
  lhsNonContracting := [0, 1]
  rhsNonContracting := [1]
  lhsBatch := []
  rhsBatch := []
  wf := dot_S1024x20x1000_S1000x16_S1024x20x16_2_0_01_1_n_n_wf
def dot_S1024x320_S320x256_S1024x256_1_0_0_1_n_n : DotDims S1024x320 S320x256 S1024x256 where
  lhsContracting := [1]
  rhsContracting := [0]
  lhsNonContracting := [0]
  rhsNonContracting := [1]
  lhsBatch := []
  rhsBatch := []
  wf := dot_S1024x320_S320x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

class Facts : Prop extends Facts₀ where

variable [Facts]
-- ==== Proof.FrameKernel.lean ====
/-
  The frame of the program: it runs to the end, faults nowhere, and leaves its argument arrays unchanged.

  @main is eight host operations (the positional table, the ones column and the zero columns joined to the
  embedding table, the two bias vectors reshaped to rows) and then one pipelined region over 8 grid points.
  At point t the body reads block t of the mask (rows 128 t … 128 t + 127) and the whole of the six other
  operands, and stores one [128, 128] block of the result, which covers its staging buffer. So after the body
  every input buffer holds what it held and the output buffer holds one function of the input blocks
  (`out0_7`); the launch theorem of the pipeline library then gives the run, and the argument arrays, which
  no host operation and no window writes, end as they began.
-/
import proofs.«109084_g24670292148808_cont_8to1_1333_38_alg».proof.Proof.Gen.Kernel.Launch
import proofs.«109084_g24670292148808_cont_8to1_1333_38_alg».proof.Proof.Gen.Kernel.Skeleton
import proofs.«109084_g24670292148808_cont_8to1_1333_38_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the eight host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline library's frame post,
    read at the argument arrays (a staged input by `Dat.arrAt_in`, an array no window stages by the post's
    second clause), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).2 main_arg3 (Pipeline.mem_restRefs_of main_arg3 (by decide) (by decide))).trans (V_main_arg3 m c),
      ((h c).1 5).trans (((dats 0 c).arrAt_in 5 rfl _).trans ((hA c 5).trans (V_main_arg4 m c))),
      ((h c).2 main_arg5 (Pipeline.mem_restRefs_of main_arg5 (by decide) (by decide))).trans (V_main_arg5 m c)⟩) h

/-! ## The body's accesses: every load and the one store go through the whole buffer -/

abbrev r0_0 : Rect S128x20x1000 := Rect.unit (s := S128x20x1000) ![0, 0, 0] S128x20x1000.size inb_S128x20x1000_S128x20x1000_0_0_0
abbrev r0_1 : Rect S1000x32 := Rect.unit (s := S1000x32) ![0, 0] S1000x32.size inb_S1000x32_S1000x32_0_0
abbrev r0_2 : Rect S20x16 := Rect.unit (s := S20x16) ![0, 0] S20x16.size inb_S20x16_S20x16_0_0
abbrev r0_3 : Rect S320x256 := Rect.unit (s := S320x256) ![0, 0] S320x256.size inb_S320x256_S320x256_0_0
abbrev r0_4 : Rect S1x256 := Rect.unit (s := S1x256) ![0, 0] S1x256.size inb_S1x256_S1x256_0_0
abbrev r0_5 : Rect S256x128 := Rect.unit (s := S256x128) ![0, 0] S256x128.size inb_S256x128_S256x128_0_0
abbrev r0_6 : Rect S1x128 := Rect.unit (s := S1x128) ![0, 0] S1x128.size inb_S1x128_S1x128_0_0
abbrev r0_7 : Rect S128x128 := Rect.unit (s := S128x128) ![0, 0] S128x128.size inb_S128x128_S128x128_0_0

/-! ## What the body leaves in the output window's buffer -/

/-- The output staging buffer after the body, from the seven input blocks: its one store, of the body's
    arithmetic applied to what the seven loads read. -/
def out0_7 (x0 : Vec F S128x20x1000 .i32) (x1 : Vec F S1000x32 .f32) (x2 : Vec F S20x16 .f32) (x3 : Vec F S320x256 .f32) (x4 : Vec F S1x256 .f32) (x5 : Vec F S256x128 .f32) (x6 : Vec F S1x128 .f32) : Vec F S128x128 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The one store covers the buffer. -/
theorem cover0_7 (p0 : Vec F S128x128 .f32) (y : S128x128.Idx) :
    ∃ pc ∈ ([⟨r0_7, p0⟩] : List (View.Piece (Elt F) S128x128 .f32)), y ∈ pc.1.set :=
  View.cover_of_tiled [⟨r0_7, p0⟩] S128x128.size (by rfl) y

/-! ## The body's triple -/

set_option maxHeartbeats 1000000 in
/-- The body on whole staging memrefs, the inputs' at contents `xW` and the output's at anything, runs to the
    continuation holding the inputs' as they were and the output's at `out0_7` of them. -/
theorem sound_kernel (c : Dev nD) (E : Set ℕ) (i : grid0.Coords) (arg1 : Memref sig .tc .vmem S128x20x1000 .i32) (harg1 : arg1.IsWhole) (arg2 : Memref sig .tc .vmem S1000x32 .f32) (harg2 : arg2.IsWhole) (arg3 : Memref sig .tc .vmem S20x16 .f32) (harg3 : arg3.IsWhole) (arg4 : Memref sig .tc .vmem S320x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole)
    (x0 : Vec F S128x20x1000 .i32) (x1 : Vec F S1000x32 .f32) (x2 : Vec F S20x16 .f32) (x3 : Vec F S320x256 .f32) (x4 : Vec F S1x256 .f32) (x5 : Vec F S256x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The pipeline's proof data -/

/-- The proof data of the pipeline on core `c`: the arrays as the region finds them; after the body at point
    `t` each input's buffer at its block and the output's at `out0_7` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Frm

end
-- ==== Proof.FrameKernelIdeal.lean ====
/-
  The frame of the program: it runs to the end, faults nowhere, and leaves its argument arrays unchanged.

  @main is eight host operations (the positional table, the ones column and the zero columns joined to the
  embedding table, the two bias vectors reshaped to rows) and then one pipelined region over 8 grid points.
  At point t the body reads block t of the mask (rows 128 t … 128 t + 127) and the whole of the six other
  operands, and stores one [128, 128] block of the result, which covers its staging buffer. So after the body
  every input buffer holds what it held and the output buffer holds one function of the input blocks
  (`out0_7`); the launch theorem of the pipeline library then gives the run, and the argument arrays, which
  no host operation and no window writes, end as they began.
-/
import proofs.«109084_g24670292148808_cont_8to1_1333_38_alg».proof.Proof.Gen.KernelIdeal.Launch
import proofs.«109084_g24670292148808_cont_8to1_1333_38_alg».proof.Proof.Gen.KernelIdeal.Skeleton
import proofs.«109084_g24670292148808_cont_8to1_1333_38_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the eight host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline library's frame post,
    read at the argument arrays (a staged input by `Dat.arrAt_in`, an array no window stages by the post's
    second clause), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).2 main_arg3 (Pipeline.mem_restRefs_of main_arg3 (by decide) (by decide))).trans (V_main_arg3 m c),
      ((h c).1 5).trans (((dats 0 c).arrAt_in 5 rfl _).trans ((hA c 5).trans (V_main_arg4 m c))),
      ((h c).2 main_arg5 (Pipeline.mem_restRefs_of main_arg5 (by decide) (by decide))).trans (V_main_arg5 m c)⟩) h

/-! ## The body's accesses: every load and the one store go through the whole buffer -/

abbrev r0_0 : Rect S128x20x1000 := Rect.unit (s := S128x20x1000) ![0, 0, 0] S128x20x1000.size inb_S128x20x1000_S128x20x1000_0_0_0
abbrev r0_1 : Rect S1000x32 := Rect.unit (s := S1000x32) ![0, 0] S1000x32.size inb_S1000x32_S1000x32_0_0
abbrev r0_2 : Rect S20x16 := Rect.unit (s := S20x16) ![0, 0] S20x16.size inb_S20x16_S20x16_0_0
abbrev r0_3 : Rect S320x256 := Rect.unit (s := S320x256) ![0, 0] S320x256.size inb_S320x256_S320x256_0_0
abbrev r0_4 : Rect S1x256 := Rect.unit (s := S1x256) ![0, 0] S1x256.size inb_S1x256_S1x256_0_0
abbrev r0_5 : Rect S256x128 := Rect.unit (s := S256x128) ![0, 0] S256x128.size inb_S256x128_S256x128_0_0
abbrev r0_6 : Rect S1x128 := Rect.unit (s := S1x128) ![0, 0] S1x128.size inb_S1x128_S1x128_0_0
abbrev r0_7 : Rect S128x128 := Rect.unit (s := S128x128) ![0, 0] S128x128.size inb_S128x128_S128x128_0_0

/-! ## What the body leaves in the output window's buffer -/

/-- The output staging buffer after the body, from the seven input blocks: its one store, of the body's
    arithmetic applied to what the seven loads read. -/
def out0_7 (x0 : Vec F S128x20x1000 .i32) (x1 : Vec F S1000x32 .f32) (x2 : Vec F S20x16 .f32) (x3 : Vec F S320x256 .f32) (x4 : Vec F S1x256 .f32) (x5 : Vec F S256x128 .f32) (x6 : Vec F S1x128 .f32) : Vec F S128x128 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The one store covers the buffer. -/
theorem cover0_7 (p0 : Vec F S128x128 .f32) (y : S128x128.Idx) :
    ∃ pc ∈ ([⟨r0_7, p0⟩] : List (View.Piece (Elt F) S128x128 .f32)), y ∈ pc.1.set :=
  View.cover_of_tiled [⟨r0_7, p0⟩] S128x128.size (by rfl) y

/-! ## The body's triple -/

set_option maxHeartbeats 1000000 in
/-- The body on whole staging memrefs, the inputs' at contents `xW` and the output's at anything, runs to the
    continuation holding the inputs' as they were and the output's at `out0_7` of them. -/
theorem sound_kernel (c : Dev nD) (E : Set ℕ) (i : grid0.Coords) (arg1 : Memref sig .tc .vmem S128x20x1000 .i32) (harg1 : arg1.IsWhole) (arg2 : Memref sig .tc .vmem S1000x32 .f32) (harg2 : arg2.IsWhole) (arg3 : Memref sig .tc .vmem S20x16 .f32) (harg3 : arg3.IsWhole) (arg4 : Memref sig .tc .vmem S320x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole)
    (x0 : Vec F S128x20x1000 .i32) (x1 : Vec F S1000x32 .f32) (x2 : Vec F S20x16 .f32) (x3 : Vec F S320x256 .f32) (x4 : Vec F S1x256 .f32) (x5 : Vec F S256x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The pipeline's proof data -/

/-- The proof data of the pipeline on core `c`: the arrays as the region finds them; after the body at point
    `t` each input's buffer at its block and the output's at `out0_7` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Frm

end
-- ==== Proof.Spec.lean ====
/-
  The function both programs compute, stated once over the argument arrays, index by index, on the
  extended reals.

  A multi-hot mask `A` (integers, read exactly as reals) of shape [1024, 20, 1000] is contracted with an
  embedding table `E` [1000, 16]; each row of 16 numbers is scaled by 4 and receives the positional row
  `P s` exactly when the mask row has a positive sum; the 20 × 16 numbers of a batch entry, laid side by
  side as 320 features (feature q = position q / 16, channel q % 16), go through two dense layers with
  `tanh`:  out b j = tanh (Σ_k tanh (Σ_q feat b q · W0 q k + B0 k) · W1 k j + B1 j).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The position (0 … 19) of feature `q` of the 320. -/
def qpos (q : Fin 320) : Fin 20 := ⟨q.val / 16, by have := q.isLt; omega⟩
/-- The channel (0 … 15) of feature `q` of the 320. -/
def qchan (q : Fin 320) : Fin 16 := ⟨q.val % 16, by omega⟩

/-- The scale: the number the pattern of `4.0` denotes. -/
def four : EReal := Ideal.ofBits .f32 0x40800000#32

/-- The indicator of a positive number. -/
def ind (x : EReal) : EReal := if 0 < x then 1 else 0

section
variable (A : (⟨3, ![1024, 20, 1000]⟩ : Shape).Idx → BitVec 32)
  (E : (⟨2, ![1000, 16]⟩ : Shape).Idx → EReal) (P : (⟨2, ![20, 16]⟩ : Shape).Idx → EReal)
  (W0 : (⟨2, ![320, 256]⟩ : Shape).Idx → EReal) (B0 : (⟨1, ![256]⟩ : Shape).Idx → EReal)
  (W1 : (⟨2, ![256, 128]⟩ : Shape).Idx → EReal) (B1 : (⟨1, ![128]⟩ : Shape).Idx → EReal)

/-- One mask entry as a number. -/
def mk (b : Fin 1024) (s : Fin 20) (v : Fin 1000) : EReal := FloatOps.sitofp (F := Ideal) .f32 (A (ix3 b s v))

/-- The mask row's sum. -/
def cnt (b : Fin 1024) (s : Fin 20) : EReal := ∑ v : Fin 1000, mk A b s v

/-- The mask row contracted with channel `e` of the table. -/
def emb (b : Fin 1024) (s : Fin 20) (e : Fin 16) : EReal := ∑ v : Fin 1000, mk A b s v * E (ix2 v e)

/-- Feature `q` of batch entry `b`. -/
def feat (b : Fin 1024) (q : Fin 320) : EReal :=
  emb A E b (qpos q) (qchan q) * four + P (ix2 (qpos q) (qchan q)) * ind (cnt A b (qpos q))

/-- The hidden layer. -/
def hid (b : Fin 1024) (k : Fin 256) : EReal :=
  Ideal.tanh ((∑ q : Fin 320, feat A E P b q * W0 (ix2 q k)) + B0 (ix1 k))

/-- The output layer. -/
def out (b : Fin 1024) (j : Fin 128) : EReal :=
  Ideal.tanh ((∑ k : Fin 256, hid A E P W0 B0 b k * W1 (ix2 k j)) + B1 (ix1 j))

/-- The whole result array. -/
def G : (⟨2, ![1024, 128]⟩ : Shape).Idx → EReal := fun i => out A E P W0 B0 W1 B1 (i 0) (i 1)

theorem G_ix2 (b : Fin 1024) (j : Fin 128) : G A E P W0 B0 W1 B1 (ix2 b j) = out A E P W0 B0 W1 B1 b j := rfl

end

/-! ## The constants and the two spellings of the indicator -/

/-- The pattern of `0.0` denotes 0. -/
theorem ofBits_zero : Ideal.ofBits .f32 0x00000000#32 = 0 := Ideal.ofBits_zero_f32

/-- The pattern of `1.0` denotes 1. -/
theorem ofBits_one : Ideal.ofBits .f32 0x3F800000#32 = 1 := by
  simp [Ideal.ofBits, Ideal.ieee, -EReal.coe_mul]; norm_num

/-- The pattern of `4.0` denotes the real 4. -/
theorem four_eq : four = ((4 : ℝ) : EReal) := by
  unfold four; simp [Ideal.ofBits, Ideal.ieee, -EReal.coe_mul]; norm_num

/-- The pattern of `16.0` denotes the real 16. -/
theorem ofBits_sixteen : Ideal.ofBits .f32 0x41800000#32 = ((16 : ℝ) : EReal) := by
  simp [Ideal.ofBits, Ideal.ieee, -EReal.coe_mul]; norm_num

/-- The square root of 16 is the scale 4. -/
theorem sqrt_sixteen : Ideal.sqrt (Ideal.ofBits .f32 0x41800000#32) = four := by
  rw [ofBits_sixteen, four_eq, Ideal.sqrt_coe, if_neg (by norm_num)]
  have h : Real.sqrt 16 = 4 := by
    rw [show (16 : ℝ) = 4 * 4 by norm_num]; exact Real.sqrt_mul_self (by norm_num)
  rw [h]

/-- A comparison bit widened to a word and read as a signed integer is the indicator. -/
theorem ind_signed (x : EReal) :
    FloatOps.sitofp (F := Ideal) .f32 ((Ideal.cmp .ogt x 0).setWidth 32) = ind x := by
  unfold ind Ideal.cmp
  by_cases h : (0 : EReal) < x
  · simp only [h, decide_true, BitVec.ofBool_true, if_true]
    show ((((1#1 : BitVec 1).setWidth 32).toInt : ℝ) : EReal) = 1
    rw [show ((1#1 : BitVec 1).setWidth 32).toInt = 1 by decide]; simp
  · simp only [h, decide_false, BitVec.ofBool_false, if_false]
    show ((((0#1 : BitVec 1).setWidth 32).toInt : ℝ) : EReal) = 0
    rw [show ((0#1 : BitVec 1).setWidth 32).toInt = 0 by decide]; simp

/-- A comparison bit read as an unsigned integer is the indicator. -/
theorem ind_unsigned (x : EReal) :
    FloatOps.uitofp (F := Ideal) .f32 (Ideal.cmp .ogt x 0) = ind x := by
  unfold ind Ideal.cmp
  by_cases h : (0 : EReal) < x
  · simp only [h, decide_true, BitVec.ofBool_true, if_true]
    show ((((1#1 : BitVec 1)).toNat : ℝ) : EReal) = 1
    rw [show ((1#1 : BitVec 1)).toNat = 1 by decide]; simp
  · simp only [h, decide_false, BitVec.ofBool_false, if_false]
    show ((((0#1 : BitVec 1)).toNat : ℝ) : EReal) = 0
    rw [show ((0#1 : BitVec 1)).toNat = 0 by decide]; simp

end Cert.Spec

end
-- ==== Proof.LibMatmul.lean ====
/-
  A matrix product read at one entry, over the extended reals.

  A product of an [A, K] matrix by a [K, B] matrix whose dimension numbers contract the left operand's second axis
  with the right operand's first, accumulated into the zero matrix, has at entry (r, j) the value
  Σ_k lhs[r, k] · rhs[k, j]: exact arithmetic leaves neither rounding nor a chunk order in it.
-/
import Idealize.ShloMosaic.PureOps.Ideal.Laws
import Idealize.ShloMosaic.Lib.ValueIdx

noncomputable section

namespace Cert.LibMatmul

open Idealize.ShloMosaic Idealize.ShloMosaic.ValueIdx

/-- Entry (r, j) of a plain matrix product into a zero accumulator is the sum over the contracted axis. -/
theorem plain_matmul_zero_apply {A K B : Nat} {φ₁ φ₂ : FTy} (prec : Option ContractPrecision)
    (lhs : FVec Ideal ⟨2, ![A, K]⟩ φ₁) (rhs : FVec Ideal ⟨2, ![K, B]⟩ φ₂) (r : Fin A) (j : Fin B) :
    FloatOps.matmul (DotDims.plain A K B) prec lhs rhs (constant (F := Ideal) ⟨2, ![A, B]⟩ .f32 0x00000000#32) (ix2 r j)
      = ∑ k : Fin K, lhs (ix2 r k) * rhs (ix2 k j) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibMatmul

end
-- ==== Proof.LibBlocks.lean ====
/-
  Blocks of rank two and three read at an index: the unit axes a vector kernel adds and drops around its stores,
  the two broadcasts that fill a rank-three block from a matrix of rows or from a matrix with a trailing unit axis, the
  host's placement of a rank-three array into a rank-four one with a unit axis in second place, a load of one column
  of a matrix, and where an index of a rank-three block lies relative to a slab cut along the last axis. Each is the
  general "same row-major position" or "trailing coordinates" reading of the operation, with both indices written out
  by coordinates; the extents are free.
-/
import Idealize.ShloMosaic.Lib.ValueLayout

namespace Cert.LibBlocks

open Idealize.ShloMosaic Idealize.ShloMosaic.ValueIdx

variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, 1, b]` array cast to `[a, b]` reads, at `(p, q)`, the operand at `(p, 0, q)`. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

/-- A `[1, b, c]` array broadcast to `[a, b, c]` reads, at `(p, q, k)`, the operand's one matrix at `(q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, b, c]` array placed on axes 0, 2, 3 of an `[a, 1, b, c]` array reads, at `(p, u, q, k)`, the operand at
    `(p, q, k)`. -/
theorem broadcastInDim_abc_a1bc_apply {a b c : ℕ} (x : (⟨3, ![a, b, c]⟩ : Shape).Idx → α)
    (h : (⟨3, ![a, b, c]⟩ : Shape).BroadcastsInDim ⟨4, ![a, 1, b, c]⟩ ![0, 2, 3])
    (p : Fin a) (u : Fin 1) (q : Fin b) (k : Fin c) :
    broadcastInDim ⟨4, ![a, 1, b, c]⟩ ![0, 2, 3] h x (ix4 p u q k) = x (ix3 p q k) := by
  refine broadcastInDim_apply ![0, 2, 3] h x (ix4 p u q k) (ix3 p q k) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show k.val = if c = 1 then 0 else k.val
    split
    · have := k.isLt; omega
    · rfl

section Loads

variable {Val : EltTy → Type} {e : EltTy}

/-- A load of column `j` of an `[a, b]` block, as an `[a, 1]` column, reads at `(p, u)` the block at `(p, j)`. -/
theorem ld_col_apply {a b : ℕ} (X : (⟨2, ![a, b]⟩ : Shape).Idx → Val e) (j : ℕ) (hj : j < b)
    (inb : ∀ ax, (![0, j] : Fin 2 → ℕ) ax + (![a, 1] : Fin 2 → ℕ) ax ≤ (⟨2, ![a, b]⟩ : Shape).size ax)
    (p : Fin a) (u : Fin 1) :
    View.ld X (Rect.unit ![0, j] ![a, 1] inb) (ix2 p u) = X (ix2 p ⟨j, hj⟩) := by
  show X _ = X _
  congr 1
  funext ax
  apply Fin.ext
  match ax with
  | ⟨0, _⟩ => show 0 + 1 * p.val = p.val; omega
  | ⟨1, _⟩ => show j + 1 * u.val = j; omega

end Loads

/-- The slab of an `[a, b, c]` block that keeps the first two axes whole and takes `n` consecutive coordinates from
    `o` on the last: its own index `(p, q, k')` sits at `(p, q, o + k')` of the block. -/
theorem slab_emb {a b c n o : ℕ}
    (inb : ∀ ax, (![0, 0, o] : Fin 3 → ℕ) ax + (![a, b, n] : Fin 3 → ℕ) ax ≤ (⟨3, ![a, b, c]⟩ : Shape).size ax)
    (p : Fin a) (q : Fin b) (k' : Fin n) (hk : o + k'.val < c) :
    (Rect.unit (s := ⟨3, ![a, b, c]⟩) ![0, 0, o] ![a, b, n] inb).emb (ix3 p q k') = ix3 p q ⟨o + k'.val, hk⟩ := by
  funext ax
  apply Fin.ext
  match ax with
  | ⟨0, _⟩ => show 0 + 1 * p.val = p.val; omega
  | ⟨1, _⟩ => show 0 + 1 * q.val = q.val; omega
  | ⟨2, _⟩ => show o + 1 * k'.val = o + k'.val; omega

/-- An index whose last coordinate is before the slab's first or at or past its end is not in the slab. -/
theorem not_mem_slab {a b c n o : ℕ}
    (inb : ∀ ax, (![0, 0, o] : Fin 3 → ℕ) ax + (![a, b, n] : Fin 3 → ℕ) ax ≤ (⟨3, ![a, b, c]⟩ : Shape).size ax)
    (p : Fin a) (q : Fin b) (k : Fin c) (hk : k.val < o ∨ o + n ≤ k.val) :
    ix3 p q k ∉ (Rect.unit (s := ⟨3, ![a, b, c]⟩) ![0, 0, o] ![a, b, n] inb).set := by
  rw [Rect.mem_set_unit]
  intro hm
  have h2 := hm (⟨2, (by show 2 < 3; omega)⟩ : Fin (⟨3, ![a, b, c]⟩ : Shape).rank)
  change o ≤ k.val ∧ k.val < o + n at h2
  omega

end Cert.LibBlocks
-- ==== Proof.KernelPayload.lean ====
/-
  The body's arithmetic, read at one entry of the block it stores.

  The body takes a [128, 20, 1000] block of the mask, flattens it to 2560 rows (row 20 r + s is batch row r,
  position s), multiplies it by the [1000, 32] augmented table (columns 0 … 15 the embedding table, column 16
  all ones), scales columns 0 … 15 by 4, turns column 16 — the row's sum — into the indicator of a positive
  number, adds the positional row times the indicator, lays the 20 × 16 numbers of a batch row side by side as
  320 features, and applies the two dense layers with tanh. Each stage is named and read at an index; the last
  theorem says that, for blocks that are the corresponding pieces of the argument arrays, entry (r, j) of the
  result is the specification's `out` at batch row 128 t + r.
-/
import proofs.«109084_g24670292148808_cont_8to1_1333_38_alg».proof.Proof.Gen.KernelIdeal.Skeleton
import proofs.«109084_g24670292148808_cont_8to1_1333_38_alg».proof.Proof.Spec
import proofs.«109084_g24670292148808_cont_8to1_1333_38_alg».proof.Proof.LibMatmul
import proofs.«109084_g24670292148808_cont_8to1_1333_38_alg».proof.Proof.LibBlocks
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx

/-- Row 20 r + s of the 2560 flattened rows. -/
def row (r : Fin 128) (s : Fin 20) : Fin 2560 := ⟨r.val * 20 + s.val, by have := r.isLt; have := s.isLt; omega⟩

/-- Batch row 128 t + r of the 1024. -/
def brow (tb : Fin 8) (r : Fin 128) : Fin 1024 := ⟨tb.val * 128 + r.val, by have := r.isLt; have := tb.isLt; omega⟩

/-- Column e < 16 of the 32 columns of the augmented table. -/
def col (e : Fin 16) : Fin 32 := ⟨e.val, by have := e.isLt; omega⟩

section
variable (x0 : IVec S128x20x1000 32) (x1 : FVec Ideal S1000x32 .f32) (x2 : FVec Ideal S20x16 .f32)
  (x3 : FVec Ideal S320x256 .f32) (x4 : FVec Ideal S1x256 .f32) (x5 : FVec Ideal S256x128 .f32) (x6 : FVec Ideal S1x128 .f32)

/-- The mask block as 2560 rows of numbers. -/
def maskF : FVec Ideal S2560x1000 .f32 :=
  sitofp .f32 (shapeCast S2560x1000 x0 shapeCasts_S128x20x1000_S2560x1000)

theorem maskF_apply (r : Fin 128) (s : Fin 20) (v : Fin 1000) :
    maskF x0 (ix2 (row r s) v) = FloatOps.sitofp (F := Ideal) .f32 (x0 (ix3 r s v)) := by
  show FloatOps.sitofp (F := Ideal) .f32 (shapeCast S2560x1000 x0 shapeCasts_S128x20x1000_S2560x1000 (ix2 (row r s) v)) = _
  refine congrArg _ (shapeCast_apply x0 _ _ (ix3 r s v) ?_)
  rw [Shape.rowMajor_val_three, Shape.rowMajor_val_two]
  rfl

/-- The mask rows contracted with the augmented table. -/
def prod1 : FVec Ideal S2560x32 .f32 :=
  matmul dot_S2560x1000_S1000x32_S2560x32_1_0_0_1_n_n none (maskF x0) (shapeCast S1000x32 x1 shapeCasts_S1000x32_S1000x32)
    (constant S2560x32 .f32 0x00000000#32)

theorem prod1_apply (r : Fin 128) (s : Fin 20) (c : Fin 32) :
    prod1 x0 x1 (ix2 (row r s) c) = ∑ v : Fin 1000, FloatOps.sitofp (F := Ideal) .f32 (x0 (ix3 r s v)) * x1 (ix2 v c) := by
  unfold prod1
  rw [shapeCast_self]
  refine (Cert.LibMatmul.plain_matmul_zero_apply none (maskF x0) x1 (row r s) c).trans ?_
  exact Finset.sum_congr rfl fun v _ => by rw [maskF_apply]

/-- Columns 0 … 15, scaled. -/
def scaled : FVec Ideal S2560x16 .f32 :=
  mulf (extractStridedSlice S2560x16 ![0, 0] (prod1 x0 x1) slices_S2560x32_o0_0_S2560x16)
    (broadcast S2560x16 (Scalar.ofBits .f32 0x40800000#32))

theorem scaled_apply (r : Fin 128) (s : Fin 20) (e : Fin 16) :
    scaled x0 x1 (ix2 (row r s) e)
      = (∑ v : Fin 1000, FloatOps.sitofp (F := Ideal) .f32 (x0 (ix3 r s v)) * x1 (ix2 v (col e))) * Spec.four := by
  show extractStridedSlice S2560x16 ![0, 0] (prod1 x0 x1) slices_S2560x32_o0_0_S2560x16 (ix2 (row r s) e) * Spec.four = _
  refine congrArg (· * Spec.four) ?_
  refine (extractStridedSlice_apply _ (prod1 x0 x1) _ (ix2 (row r s) e) (ix2 (row r s) (col e)) fun a => ?_).trans (prod1_apply x0 x1 r s (col e))
  match a with
  | ⟨0, _⟩ => exact (Nat.zero_add _).symm
  | ⟨1, _⟩ => exact (Nat.zero_add _).symm

/-- Column 16 turned into the indicator of a positive row sum. -/
def flag : FVec Ideal S2560x1 .f32 :=
  sitofp .f32 (extui 32 (cmpf .ogt (extractStridedSlice S2560x1 ![0, 16] (prod1 x0 x1) slices_S2560x32_o0_16_S2560x1)
    (broadcast S2560x1 (Scalar.ofBits .f32 0x00000000#32))) natLt_1_32)

theorem flag_apply (r : Fin 128) (s : Fin 20) (u : Fin 1) :
    flag x0 x1 (ix2 (row r s) u)
      = Spec.ind (∑ v : Fin 1000, FloatOps.sitofp (F := Ideal) .f32 (x0 (ix3 r s v)) * x1 (ix2 v (16 : Fin 32))) := by
  show FloatOps.sitofp (F := Ideal) .f32 ((Ideal.cmp .ogt
      (extractStridedSlice S2560x1 ![0, 16] (prod1 x0 x1) slices_S2560x32_o0_16_S2560x1 (ix2 (row r s) u))
      (Ideal.ofBits .f32 0x00000000#32)).setWidth 32) = _
  rw [Spec.ofBits_zero, Spec.ind_signed]
  refine congrArg Spec.ind ?_
  refine (extractStridedSlice_apply _ (prod1 x0 x1) _ (ix2 (row r s) u) (ix2 (row r s) (16 : Fin 32)) fun a => ?_).trans (prod1_apply x0 x1 r s 16)
  match a with
  | ⟨0, _⟩ => exact (Nat.zero_add _).symm
  | ⟨1, _⟩ => show 16 = 16 + u.val; omega

/-- The 20 × 16 numbers of each batch row: scaled embedding plus positional row times indicator. -/
def feat3 : FVec Ideal S128x20x16 .f32 :=
  addf (shapeCast S128x20x16 (scaled x0 x1) shapeCasts_S2560x16_S128x20x16)
    (mulf (broadcastTo S128x20x16 (shapeCast S1x20x16 x2 shapeCasts_S20x16_S1x20x16) broadcasts_S1x20x16_S128x20x16)
      (broadcastTo S128x20x16 (shapeCast S128x20x1 (flag x0 x1) shapeCasts_S2560x1_S128x20x1) broadcasts_S128x20x1_S128x20x16))

theorem feat3_apply (r : Fin 128) (s : Fin 20) (e : Fin 16) :
    feat3 x0 x1 x2 (ix3 r s e) = scaled x0 x1 (ix2 (row r s) e) + x2 (ix2 s e) * flag x0 x1 (ix2 (row r s) (0 : Fin 1)) := by
  have e1 : shapeCast S128x20x16 (scaled x0 x1) shapeCasts_S2560x16_S128x20x16 (ix3 r s e) = scaled x0 x1 (ix2 (row r s) e) :=
    shapeCast_apply (scaled x0 x1) _ (ix3 r s e) (ix2 (row r s) e) (by
      rw [Shape.rowMajor_val_three, Shape.rowMajor_val_two]; rfl)
  have e2 : broadcastTo S128x20x16 (shapeCast S1x20x16 x2 shapeCasts_S20x16_S1x20x16) broadcasts_S1x20x16_S128x20x16 (ix3 r s e)
      = x2 (ix2 s e) :=
    (Cert.LibBlocks.broadcastTo_1bc_abc_apply _ _ r s e).trans (shapeCast_ab_1ab_apply x2 _ 0 s e)
  have e3 : broadcastTo S128x20x16 (shapeCast S128x20x1 (flag x0 x1) shapeCasts_S2560x1_S128x20x1) broadcasts_S128x20x1_S128x20x16 (ix3 r s e)
      = flag x0 x1 (ix2 (row r s) (0 : Fin 1)) :=
    (Cert.LibBlocks.broadcastTo_ab1_abc_apply _ _ r s e).trans
      (shapeCast_apply (flag x0 x1) _ (ix3 r s (0 : Fin 1)) (ix2 (row r s) (0 : Fin 1)) (by
        rw [Shape.rowMajor_val_three, Shape.rowMajor_val_two]; rfl))
  show _ + _ * _ = _
  rw [e1, e2, e3]

/-- The 320 features of each batch row. -/
def feats : FVec Ideal S128x320 .f32 := shapeCast S128x320 (feat3 x0 x1 x2) shapeCasts_S128x20x16_S128x320

theorem feats_apply (r : Fin 128) (q : Fin 320) :
    feats x0 x1 x2 (ix2 r q) = feat3 x0 x1 x2 (ix3 r (Spec.qpos q) (Spec.qchan q)) :=
  shapeCast_apply (feat3 x0 x1 x2) _ (ix2 r q) (ix3 r (Spec.qpos q) (Spec.qchan q)) (by
    rw [Shape.rowMajor_val_three, Shape.rowMajor_val_two]
    show (r.val * 20 + q.val / 16) * 16 + q.val % 16 = r.val * 320 + q.val
    omega)

/-- The hidden layer of the block. -/
def hidV : FVec Ideal S128x256 .f32 :=
  tanh (addf (matmul dot_S128x320_S320x256_S128x256_1_0_0_1_n_n none (feats x0 x1 x2) x3 (constant S128x256 .f32 0x00000000#32))
    (broadcastTo S128x256 (shapeCast S1x256 x4 shapeCasts_S1x256_S1x256) broadcasts_S1x256_S128x256))

theorem hidV_apply (r : Fin 128) (k : Fin 256) :
    hidV x0 x1 x2 x3 x4 (ix2 r k)
      = Ideal.tanh ((∑ q : Fin 320, feats x0 x1 x2 (ix2 r q) * x3 (ix2 q k)) + x4 (ix2 (0 : Fin 1) k)) := by
  have e1 := Cert.LibMatmul.plain_matmul_zero_apply none (feats x0 x1 x2) x3 r k
  have e2 : broadcastTo S128x256 (shapeCast S1x256 x4 shapeCasts_S1x256_S1x256) broadcasts_S1x256_S128x256 (ix2 r k) = x4 (ix2 (0 : Fin 1) k) := by
    rw [shapeCast_self]; exact broadcastTo_1b_ab_apply x4 _ r k
  show Ideal.tanh (_ + _) = _
  exact congrArg Ideal.tanh (congr (congrArg HAdd.hAdd e1) e2)

/-- The output layer of the block: the value the body stores. -/
def outV : FVec Ideal S128x128 .f32 :=
  tanh (addf (matmul dot_S128x256_S256x128_S128x128_1_0_0_1_n_n none (hidV x0 x1 x2 x3 x4) x5 (constant S128x128 .f32 0x00000000#32))
    (broadcastTo S128x128 (shapeCast S1x128 x6 shapeCasts_S1x128_S1x128) broadcasts_S1x128_S128x128))

theorem outV_apply (r : Fin 128) (j : Fin 128) :
    outV x0 x1 x2 x3 x4 x5 x6 (ix2 r j)
      = Ideal.tanh ((∑ k : Fin 256, hidV x0 x1 x2 x3 x4 (ix2 r k) * x5 (ix2 k j)) + x6 (ix2 (0 : Fin 1) j)) := by
  have e1 := Cert.LibMatmul.plain_matmul_zero_apply none (hidV x0 x1 x2 x3 x4) x5 r j
  have e2 : broadcastTo S128x128 (shapeCast S1x128 x6 shapeCasts_S1x128_S1x128) broadcasts_S1x128_S128x128 (ix2 r j) = x6 (ix2 (0 : Fin 1) j) := by
    rw [shapeCast_self]; exact broadcastTo_1b_ab_apply x6 _ r j
  show Ideal.tanh (_ + _) = _
  exact congrArg Ideal.tanh (congr (congrArg HAdd.hAdd e1) e2)

/-- The body's payload is the chain of these stages. -/
theorem pay_eq : k0_pay1 (F := Ideal) x0 x1 x2 x3 x4 x5 x6 = outV x0 x1 x2 x3 x4 x5 x6 := rfl

end

/-- For input blocks that are the pieces of the argument arrays the windows cut out at grid point `tb` — block
    `tb` of the mask, the table with its ones column, the positional table, the weights, the biases as rows —
    entry (r, j) of what the body stores is the specification at batch row 128 tb + r. -/
theorem pay_spec
    (x0 : IVec S128x20x1000 32) (x1 : FVec Ideal S1000x32 .f32) (x2 : FVec Ideal S20x16 .f32)
    (x3 : FVec Ideal S320x256 .f32) (x4 : FVec Ideal S1x256 .f32) (x5 : FVec Ideal S256x128 .f32) (x6 : FVec Ideal S1x128 .f32)
    (A : (⟨3, ![1024, 20, 1000]⟩ : Shape).Idx → BitVec 32)
    (E : (⟨2, ![1000, 16]⟩ : Shape).Idx → EReal) (P : (⟨2, ![20, 16]⟩ : Shape).Idx → EReal)
    (W0 : (⟨2, ![320, 256]⟩ : Shape).Idx → EReal) (B0 : (⟨1, ![256]⟩ : Shape).Idx → EReal)
    (W1 : (⟨2, ![256, 128]⟩ : Shape).Idx → EReal) (B1 : (⟨1, ![128]⟩ : Shape).Idx → EReal)
    (tb : Fin 8)
    (h0 : ∀ (r : Fin 128) (s : Fin 20) (v : Fin 1000), x0 (ix3 r s v) = A (ix3 (brow tb r) s v))
    (h1 : ∀ (v : Fin 1000) (e : Fin 16), x1 (ix2 v (col e)) = E (ix2 v e))
    (h1' : ∀ v : Fin 1000, x1 (ix2 v (16 : Fin 32)) = 1)
    (h2 : ∀ (s : Fin 20) (e : Fin 16), x2 (ix2 s e) = P (ix2 s e))
    (h3 : ∀ (q : Fin 320) (k : Fin 256), x3 (ix2 q k) = W0 (ix2 q k))
    (h4 : ∀ k : Fin 256, x4 (ix2 (0 : Fin 1) k) = B0 (ix1 k))
    (h5 : ∀ (k : Fin 256) (j : Fin 128), x5 (ix2 k j) = W1 (ix2 k j))
    (h6 : ∀ j : Fin 128, x6 (ix2 (0 : Fin 1) j) = B1 (ix1 j))
    (r : Fin 128) (j : Fin 128) :
    k0_pay1 (F := Ideal) x0 x1 x2 x3 x4 x5 x6 (ix2 r j) = Spec.out A E P W0 B0 W1 B1 (brow tb r) j := by
  rw [pay_eq, outV_apply]
  unfold Spec.out
  refine congrArg Ideal.tanh (congr (congrArg HAdd.hAdd (Finset.sum_congr rfl fun k _ => congr (congrArg HMul.hMul ?_) (h5 k j))) (h6 j))
  rw [hidV_apply]
  unfold Spec.hid
  refine congrArg Ideal.tanh (congr (congrArg HAdd.hAdd (Finset.sum_congr rfl fun q _ => congr (congrArg HMul.hMul ?_) (h3 q k))) (h4 k))
  rw [feats_apply, feat3_apply, scaled_apply, flag_apply]
  unfold Spec.feat Spec.emb Spec.cnt Spec.mk
  refine congr (congrArg HAdd.hAdd (congrArg (· * Spec.four) (Finset.sum_congr rfl fun v _ => ?_)))
    (congr (congrArg HMul.hMul (h2 _ _)) (congrArg Spec.ind (Finset.sum_congr rfl fun v _ => ?_)))
  · rw [h0, h1]
  · rw [h0, h1', mul_one]

end Cert.KernelIdeal.Pay

end
-- ==== Proof.KernelHost.lean ====
/-
  What the region finds in the arrays the host operations write before it.

  The eight host operations leave: the positional table; the embedding table joined, along its columns, with a
  column of ones and fifteen columns of zeros (so column e < 16 of the joined table is column e of the embedding
  table, and column 16 is 1 everywhere); and the two bias vectors as one-row matrices (row 0, column k is entry k).
-/
import proofs.«109084_g24670292148808_cont_8to1_1333_38_alg».proof.Proof.FrameKernelIdeal
import proofs.«109084_g24670292148808_cont_8to1_1333_38_alg».proof.Proof.KernelPayload
import Idealize.ShloMosaic.Lib.StableHlo.Run
import Idealize.ShloMosaic.Lib.Pipeline.Value
import Idealize.ShloMosaic.Lib.ValueLayout

noncomputable section

namespace Cert.KernelIdeal.HostV

open Cert.KernelIdeal Cert.KernelIdeal.Gen Cert.KernelIdeal.Frm
open Idealize.ShloMosaic Idealize.ShloMosaic.TcCoe Idealize.SL.Sem Idealize.ShloMosaic.StableHlo Idealize.ShloMosaic.ValueIdx

/-! ## The join of three column blocks, read at a column -/

section Join
variable {α : Type} (E : S1000x16.Idx → α) (O : S1000x1.Idx → α) (Z : S1000x15.Idx → α)

/-- A column of the first block. -/
theorem join_left (v : Fin 1000) (e : Fin 16) :
    concatenate S1000x32 1 [⟨S1000x16, E⟩, ⟨S1000x1, O⟩, ⟨S1000x15, Z⟩] concatenates_S1000x16_S1000x1_S1000x15_S1000x32_d1
      (ix2 v (Pay.col e)) = E (ix2 v e) :=
  concatenate_apply_piece (t := S1000x32) (1 : Fin 2) [⟨S1000x16, E⟩, ⟨S1000x1, O⟩, ⟨S1000x15, Z⟩] concatenates_S1000x16_S1000x1_S1000x15_S1000x32_d1 (ix2 v (Pay.col e)) 0 (by show (0 : ℕ) < 3; omega) S1000x16 E rfl rfl 0 rfl (ix2 v e)
    (fun b hb => match b with
      | ⟨0, _⟩ => rfl
      | ⟨1, _⟩ => absurd rfl hb)
    (Nat.zero_add _)

/-- The one column of the second block is column 16 of the join. -/
theorem join_mid (v : Fin 1000) :
    concatenate S1000x32 1 [⟨S1000x16, E⟩, ⟨S1000x1, O⟩, ⟨S1000x15, Z⟩] concatenates_S1000x16_S1000x1_S1000x15_S1000x32_d1
      (ix2 v (16 : Fin 32)) = O (ix2 v (0 : Fin 1)) :=
  concatenate_apply_piece (t := S1000x32) (1 : Fin 2) [⟨S1000x16, E⟩, ⟨S1000x1, O⟩, ⟨S1000x15, Z⟩] concatenates_S1000x16_S1000x1_S1000x15_S1000x32_d1 (ix2 v (16 : Fin 32)) 1 (by show (1 : ℕ) < 3; omega) S1000x1 O rfl rfl 16 rfl (ix2 v (0 : Fin 1))
    (fun b hb => match b with
      | ⟨0, _⟩ => rfl
      | ⟨1, _⟩ => absurd rfl hb)
    rfl

end Join

variable (m : (ℓ : Loc nD τ sig) → Buf (Elt Ideal) ℓ)

/-! ## The arrays at region entry -/

/-- The five operations before the join: the positional table, the scalar one broadcast to a column, the scalar
    zero broadcast to fifteen columns. -/
abbrev ops5 : List (HloOp τ sig (Elt Ideal)) :=
  [ StableHlo.nullary main_cst (fun i => FloatOps.ofBits (F := Ideal) .f32 (lit0 (S20x16.rowMajor i))),
    StableHlo.nullary main_cst_0 (constant (F := Ideal) S_ .f32 0x3F800000#32),
    StableHlo.unary main_cst_0 main_v0 (broadcastInDim S1000x1 ![] bcast_S_S1000x1 : (⟨S_, .f32⟩ : BufTy).Contents (Elt Ideal) → (⟨S1000x1, .f32⟩ : BufTy).Contents (Elt Ideal)),
    StableHlo.nullary main_cst_1 (constant (F := Ideal) S_ .f32 0x00000000#32),
    StableHlo.unary main_cst_1 main_v1 (broadcastInDim S1000x15 ![] bcast_S_S1000x15 : (⟨S_, .f32⟩ : BufTy).Contents (Elt Ideal) → (⟨S1000x15, .f32⟩ : BufTy).Contents (Elt Ideal)) ]

/-- The positional table, as the region finds it. -/
theorem V_cst (c : Dev nD) :
    (V m c main_cst : S20x16.Idx → EReal) = fun i => Ideal.ofBits .f32 (lit0 (S20x16.rowMajor i)) := by
  dsimp only [V, hostOps0]
  after_results
  rfl

/-- The first bias as a row. -/
theorem V_v3 (c : Dev nD) :
    (V m c main_v3 : S1x256.Idx → EReal) = shapeCast S1x256 (m ((c : Thread nD τ).loc main_arg3)) shapeCasts_S256_S1x256 := by
  dsimp only [V, hostOps0]
  after_results
  rfl

/-- The second bias as a row. -/
theorem V_v4 (c : Dev nD) :
    (V m c main_v4 : S1x128.Idx → EReal) = shapeCast S1x128 (m ((c : Thread nD τ).loc main_arg5)) shapeCasts_S128_S1x128 := by
  dsimp only [V, hostOps0]
  after_results
  rfl

/-- The joined table, over what the five operations before the join leave. -/
theorem V_v2 (c : Dev nD) :
    (V m c main_v2 : S1000x32.Idx → EReal)
      = concatenate S1000x32 1
          [⟨S1000x16, StableHlo.after ops5 (fun b => m (c, b)) (Proc.devRef .tc main_arg1)⟩,
           ⟨S1000x1, StableHlo.after ops5 (fun b => m (c, b)) (Proc.devRef .tc main_v0)⟩,
           ⟨S1000x15, StableHlo.after ops5 (fun b => m (c, b)) (Proc.devRef .tc main_v1)⟩]
          concatenates_S1000x16_S1000x1_S1000x15_S1000x32_d1 := by
  show StableHlo.after
      [ StableHlo.nary ![main_arg1, main_v0, main_v1] main_v2 (fun u => concatenate S1000x32 1 [⟨S1000x16, u 0⟩, ⟨S1000x1, u 1⟩, ⟨S1000x15, u 2⟩] concatenates_S1000x16_S1000x1_S1000x15_S1000x32_d1),
        StableHlo.reshape main_arg3 main_v3 rfl shapeCasts_S256_S1x256,
        StableHlo.reshape main_arg5 main_v4 rfl shapeCasts_S128_S1x128 ]
      (StableHlo.after ops5 (fun b => m (c, b))) (Proc.devRef .tc main_v2) = _
  generalize StableHlo.after ops5 (fun b => m (c, b)) = W
  after_results
  rfl

theorem W_arg1 (c : Dev nD) :
    StableHlo.after ops5 (fun b => m (c, b)) (Proc.devRef .tc main_arg1) = m ((c : Thread nD τ).loc main_arg1) := by
  dsimp only [ops5]
  after_results

theorem W_v0 (c : Dev nD) :
    (StableHlo.after ops5 (fun b => m (c, b)) (Proc.devRef .tc main_v0) : S1000x1.Idx → EReal)
      = broadcastInDim S1000x1 ![] bcast_S_S1000x1 (constant (F := Ideal) S_ .f32 0x3F800000#32) := by
  dsimp only [ops5]
  after_results

/-! ## Read at an index -/

/-- Column e < 16 of the joined table is column e of the embedding table. -/
theorem V_v2_left (c : Dev nD) (v : Fin 1000) (e : Fin 16) :
    V m c main_v2 (ix2 v (Pay.col e)) = m ((c : Thread nD τ).loc main_arg1) (ix2 v e) := by
  rw [V_v2, join_left, W_arg1]

/-- Column 16 of the joined table is 1. -/
theorem V_v2_ones (c : Dev nD) (v : Fin 1000) :
    V m c main_v2 (ix2 v (16 : Fin 32)) = (1 : EReal) := by
  rw [V_v2, join_mid, W_v0]
  refine (broadcastInDim_apply _ _ _ (ix2 v (0 : Fin 1)) ix0 fun a => a.elim0).trans ?_
  exact Spec.ofBits_one

/-- Row 0, column k of the first bias row is entry k of the bias. -/
theorem V_v3_apply (c : Dev nD) (k : Fin 256) :
    V m c main_v3 (ix2 (0 : Fin 1) k) = m ((c : Thread nD τ).loc main_arg3) (ix1 k) := by
  rw [V_v3]; exact shapeCast_a_1a_apply _ _ 0 k

/-- Row 0, column j of the second bias row is entry j of the bias. -/
theorem V_v4_apply (c : Dev nD) (j : Fin 128) :
    V m c main_v4 (ix2 (0 : Fin 1) j) = m ((c : Thread nD τ).loc main_arg5) (ix1 j) := by
  rw [V_v4]; exact shapeCast_a_1a_apply _ _ 0 j

end Cert.KernelIdeal.HostV

end
-- ==== Proof.KernelValue.lean ====
/-
  From the blocks to the whole result array.

  Grid point t reads rows 128 t … 128 t + 127 of the mask and all of every other operand, and writes back rows
  128 t … 128 t + 127 of the result. What it writes back is the specification restricted to those rows (the body's
  arithmetic read at an entry, over blocks that are the corresponding pieces of the argument arrays); the eight
  blocks cover the 1024 rows (row i lies in block i / 128); so after the run the result array is the
  specification of the argument arrays, and the arguments are unchanged.
-/
import proofs.«109084_g24670292148808_cont_8to1_1333_38_alg».proof.Proof.FrameKernelIdeal
import proofs.«109084_g24670292148808_cont_8to1_1333_38_alg».proof.Proof.KernelPayload
import proofs.«109084_g24670292148808_cont_8to1_1333_38_alg».proof.Proof.KernelHost
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The positional table. -/
abbrev posTab : S20x16.Idx → EReal := fun i => Ideal.ofBits .f32 (lit0 (S20x16.rowMajor i))

/-- The result array the specification gives for core `c`'s argument arrays. -/
abbrev Gm (c : Dev nD) : S1024x128.Idx → EReal :=
  Spec.G (m ((c : Thread nD τ).loc main_arg0)) (m ((c : Thread nD τ).loc main_arg1)) posTab
    (m ((c : Thread nD τ).loc main_arg2)) (m ((c : Thread nD τ).loc main_arg3))
    (m ((c : Thread nD τ).loc main_arg4)) (m ((c : Thread nD τ).loc main_arg5))

/-- The block index of every window at every grid point: the mask's and the result's blocks move down one block of
    rows per point, every other operand is one block. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- A grid point as a number below 8. -/
def pt (t : Fin cfg0.N) : Fin 8 := ⟨t.val, lt_of_lt_of_eq t.isLt N_0⟩

/-! ## Each input block read where the windows cut it -/

theorem blk0 (c : Dev nD) (t : Fin cfg0.N) (r : Fin 128) (s : Fin 20) (v : Fin 1000) :
    iblk m c 0 t (ix3 r s v) = m ((c : Thread nD τ).loc main_arg0) (ix3 (Pay.brow (pt t) r) s v) := by
  obtain ⟨e0, e1, e2⟩ := (idx_facts t).1
  show V m c main_arg0 (((cfg0.win 0).blk t).view.emb (ix3 r s v)) = _
  rw [V_main_arg0]
  refine congrArg _ (funext fun a => Fin.ext ?_)
  match a with
  | ⟨0, _⟩ => show win0_0.index t (0 : Fin 3) * 128 + 1 * r.val = t.val * 128 + r.val; rw [e0]; omega
  | ⟨1, _⟩ => show win0_0.index t (1 : Fin 3) * 20 + 1 * s.val = s.val; rw [e1]; omega
  | ⟨2, _⟩ => show win0_0.index t (2 : Fin 3) * 1000 + 1 * v.val = v.val; rw [e2]; omega

theorem blk1 (c : Dev nD) (t : Fin cfg0.N) (p : Fin 1000) (q : Fin 32) :
    iblk m c 1 t (ix2 p q) = V m c main_v2 (ix2 p q) := by
  have e0 : win0_1.index t (0 : Fin 2) = 0 := (idx_facts t).2.1.1
  have e1 : win0_1.index t (1 : Fin 2) = 0 := (idx_facts t).2.1.2
  show V m c main_v2 (((cfg0.win 1).blk t).view.emb (ix2 p q)) = _
  refine congrArg _ (funext fun a => Fin.ext ?_)
  match a with
  | ⟨0, _⟩ => show win0_1.index t (0 : Fin 2) * 1000 + 1 * p.val = p.val; rw [e0]; omega
  | ⟨1, _⟩ => show win0_1.index t (1 : Fin 2) * 32 + 1 * q.val = q.val; rw [e1]; omega

theorem blk2 (c : Dev nD) (t : Fin cfg0.N) (p : Fin 20) (q : Fin 16) :
    iblk m c 2 t (ix2 p q) = V m c main_cst (ix2 p q) := by
  have e0 : win0_2.index t (0 : Fin 2) = 0 := (idx_facts t).2.2.1.1
  have e1 : win0_2.index t (1 : Fin 2) = 0 := (idx_facts t).2.2.1.2
  show V m c main_cst (((cfg0.win 2).blk t).view.emb (ix2 p q)) = _
  refine congrArg _ (funext fun a => Fin.ext ?_)
  match a with
  | ⟨0, _⟩ => show win0_2.index t (0 : Fin 2) * 20 + 1 * p.val = p.val; rw [e0]; omega
  | ⟨1, _⟩ => show win0_2.index t (1 : Fin 2) * 16 + 1 * q.val = q.val; rw [e1]; omega

theorem blk3 (c : Dev nD) (t : Fin cfg0.N) (p : Fin 320) (q : Fin 256) :
    iblk m c 3 t (ix2 p q) = V m c main_arg2 (ix2 p q) := by
  have e0 : win0_3.index t (0 : Fin 2) = 0 := (idx_facts t).2.2.2.1.1
  have e1 : win0_3.index t (1 : Fin 2) = 0 := (idx_facts t).2.2.2.1.2
  show V m c main_arg2 (((cfg0.win 3).blk t).view.emb (ix2 p q)) = _
  refine congrArg _ (funext fun a => Fin.ext ?_)
  match a with
  | ⟨0, _⟩ => show win0_3.index t (0 : Fin 2) * 320 + 1 * p.val = p.val; rw [e0]; omega
  | ⟨1, _⟩ => show win0_3.index t (1 : Fin 2) * 256 + 1 * q.val = q.val; rw [e1]; omega

theorem blk4 (c : Dev nD) (t : Fin cfg0.N) (p : Fin 1) (q : Fin 256) :
    iblk m c 4 t (ix2 p q) = V m c main_v3 (ix2 p q) := by
  have e0 : win0_4.index t (0 : Fin 2) = 0 := (idx_facts t).2.2.2.2.1.1
  have e1 : win0_4.index t (1 : Fin 2) = 0 := (idx_facts t).2.2.2.2.1.2
  show V m c main_v3 (((cfg0.win 4).blk t).view.emb (ix2 p q)) = _
  refine congrArg _ (funext fun a => Fin.ext ?_)
  match a with
  | ⟨0, _⟩ => show win0_4.index t (0 : Fin 2) * 1 + 1 * p.val = p.val; rw [e0]; omega
  | ⟨1, _⟩ => show win0_4.index t (1 : Fin 2) * 256 + 1 * q.val = q.val; rw [e1]; omega

theorem blk5 (c : Dev nD) (t : Fin cfg0.N) (p : Fin 256) (q : Fin 128) :
    iblk m c 5 t (ix2 p q) = V m c main_arg4 (ix2 p q) := by
  have e0 : win0_5.index t (0 : Fin 2) = 0 := (idx_facts t).2.2.2.2.2.1.1
  have e1 : win0_5.index t (1 : Fin 2) = 0 := (idx_facts t).2.2.2.2.2.1.2
  show V m c main_arg4 (((cfg0.win 5).blk t).view.emb (ix2 p q)) = _
  refine congrArg _ (funext fun a => Fin.ext ?_)
  match a with
  | ⟨0, _⟩ => show win0_5.index t (0 : Fin 2) * 256 + 1 * p.val = p.val; rw [e0]; omega
  | ⟨1, _⟩ => show win0_5.index t (1 : Fin 2) * 128 + 1 * q.val = q.val; rw [e1]; omega

theorem blk6 (c : Dev nD) (t : Fin cfg0.N) (p : Fin 1) (q : Fin 128) :
    iblk m c 6 t (ix2 p q) = V m c main_v4 (ix2 p q) := by
  have e0 : win0_6.index t (0 : Fin 2) = 0 := (idx_facts t).2.2.2.2.2.2.1.1
  have e1 : win0_6.index t (1 : Fin 2) = 0 := (idx_facts t).2.2.2.2.2.2.1.2
  show V m c main_v4 (((cfg0.win 6).blk t).view.emb (ix2 p q)) = _
  refine congrArg _ (funext fun a => Fin.ext ?_)
  match a with
  | ⟨0, _⟩ => show win0_6.index t (0 : Fin 2) * 1 + 1 * p.val = p.val; rw [e0]; omega
  | ⟨1, _⟩ => show win0_6.index t (1 : Fin 2) * 128 + 1 * q.val = q.val; rw [e1]; omega

/-! ## What a point stores, entry by entry -/

/-- The embedded position of entry (r, j) of block t of the result: row 128 t + r, column j. -/
theorem emb7 (t : Fin cfg0.N) (r : Fin 128) (j : Fin 128) :
    ((cfg0.win 7).blk t).view.emb (ix2 r j) = ix2 (Pay.brow (pt t) r) j := by
  obtain ⟨e0, e1⟩ := (idx_facts t).2.2.2.2.2.2.2
  funext a; apply Fin.ext
  match a with
  | ⟨0, _⟩ => show win0_7.index t (0 : Fin 2) * 128 + 1 * r.val = t.val * 128 + r.val; rw [e0]; omega
  | ⟨1, _⟩ => show win0_7.index t (1 : Fin 2) * 128 + 1 * j.val = j.val; rw [e1]; omega

/-- The body's arithmetic over the blocks of point t, at entry y, is the specification at the entry's position in
    the result array. -/
theorem stored_eq (c : Dev nD) (t : Fin cfg0.N) (y : S128x128.Idx) :
    k0_pay1 (F := Ideal) (iblk m c 0 t) (iblk m c 1 t) (iblk m c 2 t) (iblk m c 3 t) (iblk m c 4 t) (iblk m c 5 t) (iblk m c 6 t) y
      = Gm m c (((cfg0.win 7).blk t).view.emb y) := by
  obtain ⟨r, j, rfl⟩ : ∃ (r : Fin 128) (j : Fin 128), y = ix2 r j := ⟨y 0, y 1, eq_ix2 y⟩
  rw [emb7]
  show _ = Spec.out _ _ _ _ _ _ _ (Pay.brow (pt t) r) j
  exact Pay.pay_spec (iblk m c 0 t) (iblk m c 1 t) (iblk m c 2 t) (iblk m c 3 t) (iblk m c 4 t) (iblk m c 5 t) (iblk m c 6 t)
    (m ((c : Thread nD τ).loc main_arg0)) (m ((c : Thread nD τ).loc main_arg1)) posTab
    (m ((c : Thread nD τ).loc main_arg2)) (m ((c : Thread nD τ).loc main_arg3))
    (m ((c : Thread nD τ).loc main_arg4)) (m ((c : Thread nD τ).loc main_arg5)) (pt t)
    (blk0 m c t)
    (fun v e => (blk1 m c t v (Pay.col e)).trans (HostV.V_v2_left m c v e))
    (fun v => (blk1 m c t v 16).trans (HostV.V_v2_ones m c v))
    (fun s e => (blk2 m c t s e).trans (congrFun (HostV.V_cst m c) (ix2 s e)))
    (fun q k => (blk3 m c t q k).trans (congrFun (V_main_arg2 m c) (ix2 q k)))
    (fun k => (blk4 m c t 0 k).trans (HostV.V_v3_apply m c k))
    (fun k j => (blk5 m c t k j).trans (congrFun (V_main_arg4 m c) (ix2 k j)))
    (fun j => (blk6 m c t 0 j).trans (HostV.V_v4_apply m c j))
    r j

/-- What point t writes back is block t of the specification's array. -/
theorem flushed_eq (c : Dev nD) (t : Fin cfg0.N) :
    (dats m 0 c).flushed 7 t = ((cfg0.win 7).blk t).view.read (Elt Ideal) (Gm m c) := by
  show (cfg0.win 7).cut (grid0.coords t) ((dats m 0 c).after 7 t) = _
  rw [after0_7]
  unfold out0_7
  rw [View.canon_unit_zero hz2]
  simp only [View.ld_unit_zero (S := S128x20x1000) hz3, View.ld_unit_zero (S := S1000x32) hz2, View.ld_unit_zero (S := S20x16) hz2,
    View.ld_unit_zero (S := S320x256) hz2, View.ld_unit_zero (S := S1x256) hz2, View.ld_unit_zero (S := S256x128) hz2,
    View.ld_unit_zero (S := S1x128) hz2]
  funext y
  exact stored_eq m c t y

/-! ## The cover -/

/-- An index of the result array is in point t's block iff each coordinate is in the block's range on its axis. -/
theorem mem_blk (t : Fin cfg0.N) (i : S1024x128.Idx) :
    i ∈ ((cfg0.win 7).blk t).view.set ↔ ∀ a : Fin 2, win0_7.index t a * S128x128.size a ≤ (i a).val ∧ (i a).val < win0_7.index t a * S128x128.size a + S128x128.size a := by
  show i ∈ ((View.whole main_v5).slice (win0_7.rect t)).set ↔ _
  rw [View.set_slice_whole, Rect.mem_set_unit]
  exact Iff.rfl

/-- Every index of the result array lies in the block of the point its row selects. -/
theorem cover (i : S1024x128.Idx) :
    ∃ t : Fin cfg0.N, (cfg0.win 7).flush t = true ∧ i ∈ ((cfg0.win 7).blk t).view.set := by
  have hi0 : (i 0).val < 1024 := (i 0).isLt
  have hi1 : (i 1).val < 128 := (i 1).isLt
  have hN : (i 0).val / 128 < cfg0.N := by rw [show cfg0.N = 8 from N_0]; omega
  obtain ⟨e0, e1⟩ := (idx_facts ⟨(i 0).val / 128, hN⟩).2.2.2.2.2.2.2
  refine ⟨⟨(i 0).val / 128, hN⟩, flush0_7 _, ?_⟩
  rw [mem_blk]
  intro a
  match a with
  | ⟨0, _⟩ =>
    show win0_7.index ⟨(i 0).val / 128, hN⟩ (0 : Fin 2) * 128 ≤ (i 0).val ∧ (i 0).val < win0_7.index ⟨(i 0).val / 128, hN⟩ (0 : Fin 2) * 128 + 128
    rw [e0]; show (i 0).val / 128 * 128 ≤ (i 0).val ∧ (i 0).val < (i 0).val / 128 * 128 + 128; omega
  | ⟨1, _⟩ =>
    show win0_7.index ⟨(i 0).val / 128, hN⟩ (1 : Fin 2) * 128 ≤ (i 1).val ∧ (i 1).val < win0_7.index ⟨(i 0).val / 128, hN⟩ (1 : Fin 2) * 128 + 128
    rw [e1]; omega

/-- The result array after the run is the specification of the argument arrays. -/
theorem final (c : Dev nD) : (dats m 0 c).arrAt 7 cfg0.N = Gm m c :=
  (dats m 0 c).arrAt_eq_of_cover 7 (Gm m c) (fun t _ => flushed_eq m c t) cover

/-! ## The run, read -/

/-- Every weakly fair execution terminates with the result array at the specification of the argument arrays and the
    six argument arrays unchanged. -/
theorem run : θ_run defs (onTc (τ := τ) (main (F := Ideal))) ⟨m, fun _ => 0, ρ⟩ fun r => ∀ c : Dev nD,
      r.2.mem ((c.tc : Thread nD τ).loc main_v5) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 7).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c)⟩)
    (run_main m ρ)

end Cert.KernelIdeal.Val

end
-- ==== Proof.RefRun.lean ====
/-
  The reference program's @main as the list of its 30 host operations, and its run read back: every weakly
  fair execution terminates with the result buffer at `refVal` of the six argument arrays' launch contents —
  the operations' composed term — and the arguments unchanged.

  `refVal` follows the program, stage by stage: the mask converted to numbers, contracted with the embedding table,
  scaled by the square root of 16; the mask rows' sums compared with zero and the comparison bit read as a number;
  the positional table broadcast over the batch, multiplied by that number, added; the [1024, 20, 16] array
  recast as [1024, 320]; two dense layers, each a contraction plus a broadcast bias under `tanh`.
-/
import proofs.«109084_g24670292148808_cont_8to1_1333_38_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 30 operations, in order. -/
abbrev ops : List (HloOp τ sig (Elt F)) :=
  [ nullary main_cst (fun i => FloatOps.ofBits .f32 (lit0 (S20x16.rowMajor i))),
    unary main_cst main_v0 (broadcastInDim S1x20x16 ![1, 2] bcast_S20x16_S1x20x16_1_2 : (⟨S20x16, .f32⟩ : BufTy).Contents (Elt F) → (⟨S1x20x16, .f32⟩ : BufTy).Contents (Elt F)),
    unary main_arg0 main_v1 (sitofp .f32 : (⟨S1024x20x1000, .i32⟩ : BufTy).Contents (Elt F) → (⟨S1024x20x1000, .f32⟩ : BufTy).Contents (Elt F)),
    binary main_v1 main_arg1 main_v2 ((fun l r => Host.dotGeneral dot_S1024x20x1000_S1000x16_S1024x20x16_2_0_01_1_n_n none l r) : (⟨S1024x20x1000, .f32⟩ : BufTy).Contents (Elt F) → (⟨S1000x16, .f32⟩ : BufTy).Contents (Elt F) → (⟨S1024x20x16, .f32⟩ : BufTy).Contents (Elt F)),
    nullary main_cst_0 (constant S_ .f32 0x41800000#32),
    unary main_cst_0 main_v3 (Host.sqrt : (⟨S_, .f32⟩ : BufTy).Contents (Elt F) → (⟨S_, .f32⟩ : BufTy).Contents (Elt F)),
    unary main_v3 main_v4 (broadcastInDim S1024x20x16 ![] bcast_S_S1024x20x16 : (⟨S_, .f32⟩ : BufTy).Contents (Elt F) → (⟨S1024x20x16, .f32⟩ : BufTy).Contents (Elt F)),
    binary main_v2 main_v4 main_v5 (mulf : (⟨S1024x20x16, .f32⟩ : BufTy).Contents (Elt F) → (⟨S1024x20x16, .f32⟩ : BufTy).Contents (Elt F) → (⟨S1024x20x16, .f32⟩ : BufTy).Contents (Elt F)),
    nullary main_cst_1 (constant S_ .f32 0x00000000#32),
    binary main_v1 main_cst_1 main_v6 ((fun x v => Host.reduceAdd x v reducesTo_S1024x20x1000_S1024x20_d2 h_S_) : (⟨S1024x20x1000, .f32⟩ : BufTy).Contents (Elt F) → (⟨S_, .f32⟩ : BufTy).Contents (Elt F) → (⟨S1024x20, .f32⟩ : BufTy).Contents (Elt F)),
    nullary main_cst_2 (constant S_ .f32 0x00000000#32),
    unary main_cst_2 main_v7 (broadcastInDim S1024x20 ![] bcast_S_S1024x20 : (⟨S_, .f32⟩ : BufTy).Contents (Elt F) → (⟨S1024x20, .f32⟩ : BufTy).Contents (Elt F)),
    binary main_v6 main_v7 main_v8 (cmpf .ogt : (⟨S1024x20, .f32⟩ : BufTy).Contents (Elt F) → (⟨S1024x20, .f32⟩ : BufTy).Contents (Elt F) → (⟨S1024x20, .i1⟩ : BufTy).Contents (Elt F)),
    unary main_v8 main_v9 (uitofp .f32 : (⟨S1024x20, .i1⟩ : BufTy).Contents (Elt F) → (⟨S1024x20, .f32⟩ : BufTy).Contents (Elt F)),
    unary main_v9 main_v10 (broadcastInDim S1024x20x1 ![0, 1] bcast_S1024x20_S1024x20x1_0_1 : (⟨S1024x20, .f32⟩ : BufTy).Contents (Elt F) → (⟨S1024x20x1, .f32⟩ : BufTy).Contents (Elt F)),
    unary main_v0 main_v11 (broadcastInDim S1024x20x16 ![0, 1, 2] bcast_S1x20x16_S1024x20x16_0_1_2 : (⟨S1x20x16, .f32⟩ : BufTy).Contents (Elt F) → (⟨S1024x20x16, .f32⟩ : BufTy).Contents (Elt F)),
    unary main_v10 main_v12 (broadcastInDim S1024x20x16 ![0, 1, 2] bcast_S1024x20x1_S1024x20x16_0_1_2 : (⟨S1024x20x1, .f32⟩ : BufTy).Contents (Elt F) → (⟨S1024x20x16, .f32⟩ : BufTy).Contents (Elt F)),
    binary main_v11 main_v12 main_v13 (mulf : (⟨S1024x20x16, .f32⟩ : BufTy).Contents (Elt F) → (⟨S1024x20x16, .f32⟩ : BufTy).Contents (Elt F) → (⟨S1024x20x16, .f32⟩ : BufTy).Contents (Elt F)),
    binary main_v5 main_v13 main_v14 (addf : (⟨S1024x20x16, .f32⟩ : BufTy).Contents (Elt F) → (⟨S1024x20x16, .f32⟩ : BufTy).Contents (Elt F) → (⟨S1024x20x16, .f32⟩ : BufTy).Contents (Elt F)),
    reshape main_v14 main_v15 rfl shapeCasts_S1024x20x16_S1024x320,
    binary main_v15 main_arg2 main_v16 ((fun l r => Host.dotGeneral dot_S1024x320_S320x256_S1024x256_1_0_0_1_n_n none l r) : (⟨S1024x320, .f32⟩ : BufTy).Contents (Elt F) → (⟨S320x256, .f32⟩ : BufTy).Contents (Elt F) → (⟨S1024x256, .f32⟩ : BufTy).Contents (Elt F)),
    unary main_arg3 main_v17 (broadcastInDim S1x256 ![1] bcast_S256_S1x256_1 : (⟨S256, .f32⟩ : BufTy).Contents (Elt F) → (⟨S1x256, .f32⟩ : BufTy).Contents (Elt F)),
    unary main_v17 main_v18 (broadcastInDim S1024x256 ![0, 1] bcast_S1x256_S1024x256_0_1 : (⟨S1x256, .f32⟩ : BufTy).Contents (Elt F) → (⟨S1024x256, .f32⟩ : BufTy).Contents (Elt F)),
    binary main_v16 main_v18 main_v19 (addf : (⟨S1024x256, .f32⟩ : BufTy).Contents (Elt F) → (⟨S1024x256, .f32⟩ : BufTy).Contents (Elt F) → (⟨S1024x256, .f32⟩ : BufTy).Contents (Elt F)),
    unary main_v19 main_v20 (Host.tanh : (⟨S1024x256, .f32⟩ : BufTy).Contents (Elt F) → (⟨S1024x256, .f32⟩ : BufTy).Contents (Elt F)),
    binary main_v20 main_arg4 main_v21 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    unary main_arg5 main_v22 (broadcastInDim S1x128 ![1] bcast_S128_S1x128_1 : (⟨S128, .f32⟩ : BufTy).Contents (Elt F) → (⟨S1x128, .f32⟩ : BufTy).Contents (Elt F)),
    unary main_v22 main_v23 (broadcastInDim S1024x128 ![0, 1] bcast_S1x128_S1024x128_0_1 : (⟨S1x128, .f32⟩ : BufTy).Contents (Elt F) → (⟨S1024x128, .f32⟩ : BufTy).Contents (Elt F)),
    binary main_v21 main_v23 main_v24 (addf : (⟨S1024x128, .f32⟩ : BufTy).Contents (Elt F) → (⟨S1024x128, .f32⟩ : BufTy).Contents (Elt F) → (⟨S1024x128, .f32⟩ : BufTy).Contents (Elt F)),
    unary main_v24 main_v25 (Host.tanh : (⟨S1024x128, .f32⟩ : BufTy).Contents (Elt F) → (⟨S1024x128, .f32⟩ : BufTy).Contents (Elt F)) ]

/-- The positional table: the program's dense constant, element `i` the number its row-major word denotes. -/
def posTable : (⟨S20x16, .f32⟩ : BufTy).Contents (Elt F) := fun i => FloatOps.ofBits .f32 (lit0 (S20x16.rowMajor i))

/-- The mask as numbers. -/
def maskF (a0 : (⟨S1024x20x1000, .i32⟩ : BufTy).Contents (Elt F)) : (⟨S1024x20x1000, .f32⟩ : BufTy).Contents (Elt F) := sitofp .f32 a0

/-- The mask rows contracted with the table, times the square root of 16. -/
def embS (a0 : (⟨S1024x20x1000, .i32⟩ : BufTy).Contents (Elt F)) (a1 : (⟨S1000x16, .f32⟩ : BufTy).Contents (Elt F)) : (⟨S1024x20x16, .f32⟩ : BufTy).Contents (Elt F) :=
  mulf (Host.dotGeneral dot_S1024x20x1000_S1000x16_S1024x20x16_2_0_01_1_n_n none (maskF a0) a1)
    (broadcastInDim S1024x20x16 ![] bcast_S_S1024x20x16 (Host.sqrt (constant S_ .f32 0x41800000#32 : (⟨S_, .f32⟩ : BufTy).Contents (Elt F))))

/-- The comparison "row sum above zero", its bit read as a number. -/
def indic (a0 : (⟨S1024x20x1000, .i32⟩ : BufTy).Contents (Elt F)) : (⟨S1024x20, .f32⟩ : BufTy).Contents (Elt F) :=
  uitofp .f32 (cmpf .ogt
    (Host.reduceAdd (maskF a0) (constant S_ .f32 0x00000000#32 : (⟨S_, .f32⟩ : BufTy).Contents (Elt F)) reducesTo_S1024x20x1000_S1024x20_d2 h_S_ : (⟨S1024x20, .f32⟩ : BufTy).Contents (Elt F))
    (broadcastInDim S1024x20 ![] bcast_S_S1024x20 (constant S_ .f32 0x00000000#32 : (⟨S_, .f32⟩ : BufTy).Contents (Elt F))) : (⟨S1024x20, .i1⟩ : BufTy).Contents (Elt F))

/-- The scaled embedding plus the positional table where the row sum is positive. -/
def feat3 (a0 : (⟨S1024x20x1000, .i32⟩ : BufTy).Contents (Elt F)) (a1 : (⟨S1000x16, .f32⟩ : BufTy).Contents (Elt F)) : (⟨S1024x20x16, .f32⟩ : BufTy).Contents (Elt F) :=
  addf (embS a0 a1)
    (mulf
      (broadcastInDim S1024x20x16 ![0, 1, 2] bcast_S1x20x16_S1024x20x16_0_1_2
        (broadcastInDim S1x20x16 ![1, 2] bcast_S20x16_S1x20x16_1_2 (posTable (F := F)) : (⟨S1x20x16, .f32⟩ : BufTy).Contents (Elt F)))
      (broadcastInDim S1024x20x16 ![0, 1, 2] bcast_S1024x20x1_S1024x20x16_0_1_2
        (broadcastInDim S1024x20x1 ![0, 1] bcast_S1024x20_S1024x20x1_0_1 (indic a0) : (⟨S1024x20x1, .f32⟩ : BufTy).Contents (Elt F))))

/-- The 20 × 16 numbers of a batch entry side by side. -/
def feats (a0 : (⟨S1024x20x1000, .i32⟩ : BufTy).Contents (Elt F)) (a1 : (⟨S1000x16, .f32⟩ : BufTy).Contents (Elt F)) : (⟨S1024x320, .f32⟩ : BufTy).Contents (Elt F) :=
  shapeCast S1024x320 (feat3 a0 a1) shapeCasts_S1024x20x16_S1024x320

/-- The hidden layer. -/
def hidden (a0 : (⟨S1024x20x1000, .i32⟩ : BufTy).Contents (Elt F)) (a1 : (⟨S1000x16, .f32⟩ : BufTy).Contents (Elt F)) (a2 : (⟨S320x256, .f32⟩ : BufTy).Contents (Elt F))
    (a3 : (⟨S256, .f32⟩ : BufTy).Contents (Elt F)) : (⟨S1024x256, .f32⟩ : BufTy).Contents (Elt F) :=
  Host.tanh (addf (Host.dotGeneral dot_S1024x320_S320x256_S1024x256_1_0_0_1_n_n none (feats a0 a1) a2)
    (broadcastInDim S1024x256 ![0, 1] bcast_S1x256_S1024x256_0_1 (broadcastInDim S1x256 ![1] bcast_S256_S1x256_1 a3 : (⟨S1x256, .f32⟩ : BufTy).Contents (Elt F))))

/-- The operations' composed term of the six argument arrays: the output layer. -/
def refVal (a0 : (⟨S1024x20x1000, .i32⟩ : BufTy).Contents (Elt F)) (a1 : (⟨S1000x16, .f32⟩ : BufTy).Contents (Elt F)) (a2 : (⟨S320x256, .f32⟩ : BufTy).Contents (Elt F))
    (a3 : (⟨S256, .f32⟩ : BufTy).Contents (Elt F)) (a4 : (⟨S256x128, .f32⟩ : BufTy).Contents (Elt F)) (a5 : (⟨S128, .f32⟩ : BufTy).Contents (Elt F)) : (⟨S1024x128, .f32⟩ : BufTy).Contents (Elt F) :=
  Host.tanh (addf (Host.dotGeneral dot_S1024x256_S256x128_S1024x128_1_0_0_1_n_n none (hidden a0 a1 a2 a3) a4)
    (broadcastInDim S1024x128 ![0, 1] bcast_S1x128_S1024x128_0_1 (broadcastInDim S1x128 ![1] bcast_S128_S1x128_1 a5 : (⟨S1x128, .f32⟩ : BufTy).Contents (Elt F))))

set_option maxRecDepth 65536 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., binary_bufs_sub .., nullary_bufs_sub .., unary_bufs_sub .., unary_bufs_sub .., binary_bufs_sub .., nullary_bufs_sub .., binary_bufs_sub .., nullary_bufs_sub .., unary_bufs_sub .., binary_bufs_sub .., unary_bufs_sub .., unary_bufs_sub .., unary_bufs_sub .., unary_bufs_sub .., binary_bufs_sub .., binary_bufs_sub .., reshape_bufs_sub .., binary_bufs_sub .., unary_bufs_sub .., unary_bufs_sub .., binary_bufs_sub .., unary_bufs_sub .., binary_bufs_sub .., unary_bufs_sub .., unary_bufs_sub .., binary_bufs_sub .., unary_bufs_sub ..⟩

/-- On every device, for any float values, from any memory with zero counters: every weakly fair execution of
    @main terminates with the result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v25).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.RefValue

end
-- ==== Proof.RefOps.lean ====
/-
  The reference's operations that move data, each read at one index given by literal coordinates, at the
  ideal values: the three contractions as sums over the contracted coordinate, the row sum as a sum over
  the summed coordinate, each broadcast as its operand at the kept coordinates, and the recast of
  [1024, 20, 16] as [1024, 320] as its operand at (batch, feature / 16, feature % 16).
-/
import proofs.«109084_g24670292148808_cont_8to1_1333_38_alg».proof.Proof.Gen.ReferenceIdeal
import proofs.«109084_g24670292148808_cont_8to1_1333_38_alg».proof.Proof.Spec
import Idealize.ShloMosaic.PureOps.Ideal.Laws
import Idealize.ShloMosaic.Lib.ValueIdx
import Idealize.ShloMosaic.Lib.Pipeline.Value
import Idealize.ShloMosaic.Lib.StackMember

noncomputable section

namespace Cert.ReferenceIdeal.RefValue

open Cert.ReferenceIdeal Cert.ReferenceIdeal.Gen Idealize.ShloMosaic Idealize.ShloMosaic.ValueIdx

/-! ## The contractions -/

/-- The [1024, 20, 1000] × [1000, 16] contraction at (b, s, e): the sum over the 1000 of the products. -/
theorem dot3_apply (l : FVec Ideal S1024x20x1000 .f32) (r : FVec Ideal S1000x16 .f32) (b : Fin 1024) (s : Fin 20) (e : Fin 16) :
    Host.dotGeneral (F := Ideal) dot_S1024x20x1000_S1000x16_S1024x20x16_2_0_01_1_n_n none l r (ix3 b s e) = ∑ v : Fin 1000, l (ix3 b s v) * r (ix2 v e) := by
  show FloatOps.dotGeneral _ none _ l r (ix3 b s e) = _
  rw [Ideal.dotGeneral_apply, ← Equiv.sum_comp (contrEquiv1 dot_S1024x20x1000_S1000x16_S1024x20x16_2_0_01_1_n_n 1000 rfl rfl).symm]
  refine Finset.sum_congr rfl fun v _ => ?_
  have c3 := contrEquiv1_symm_val dot_S1024x20x1000_S1000x16_S1024x20x16_2_0_01_1_n_n 1000 rfl rfl v
  have l3 : (dot_S1024x20x1000_S1000x16_S1024x20x16_2_0_01_1_n_n).lhsIdx (ix3 b s e) ((contrEquiv1 dot_S1024x20x1000_S1000x16_S1024x20x16_2_0_01_1_n_n 1000 rfl rfl).symm v) = ix3 b s v := by
    funext ax; apply Fin.ext
    match ax with
    | ⟨0, _⟩ => rfl
    | ⟨1, _⟩ => rfl
    | ⟨2, _⟩ => exact ((dot_S1024x20x1000_S1000x16_S1024x20x16_2_0_01_1_n_n).lhsIdx_val_of_single (cl := 2) rfl _ _).trans c3
  have r3 : (dot_S1024x20x1000_S1000x16_S1024x20x16_2_0_01_1_n_n).rhsIdx (ix3 b s e) ((contrEquiv1 dot_S1024x20x1000_S1000x16_S1024x20x16_2_0_01_1_n_n 1000 rfl rfl).symm v) = ix2 v e := by
    funext ax; apply Fin.ext
    match ax with
    | ⟨0, _⟩ => exact ((dot_S1024x20x1000_S1000x16_S1024x20x16_2_0_01_1_n_n).rhsIdx_val_of_single (cr := 0) rfl _ _).trans c3
    | ⟨1, _⟩ => rfl
  rw [l3, r3]

/-- The [1024, 320] × [320, 256] contraction at (b, k). -/
theorem dotA_apply (l : FVec Ideal S1024x320 .f32) (r : FVec Ideal S320x256 .f32) (b : Fin 1024) (k : Fin 256) :
    Host.dotGeneral (F := Ideal) dot_S1024x320_S320x256_S1024x256_1_0_0_1_n_n none l r (ix2 b k) = ∑ q : Fin 320, l (ix2 b q) * r (ix2 q k) :=
  StackMember.dotGeneral_plain_apply (m := 1024) (k := 320) (n := 256) none l r b k

/-- The [1024, 256] × [256, 128] contraction at (b, j). -/
theorem dotB_apply (l : FVec Ideal S1024x256 .f32) (r : FVec Ideal S256x128 .f32) (b : Fin 1024) (j : Fin 128) :
    Host.dotGeneral (F := Ideal) dot_S1024x256_S256x128_S1024x128_1_0_0_1_n_n none l r (ix2 b j) = ∑ k : Fin 256, l (ix2 b k) * r (ix2 k j) :=
  StackMember.dotGeneral_plain_apply (m := 1024) (k := 256) (n := 128) none l r b j

/-! ## The row sum -/

theorem reduces_d2 : S1024x20x1000.Reduces [2] S1024x20 := by decide

/-- The sum over the last axis at (b, s): the initial value plus the sum over the 1000. -/
theorem rowSum_apply (x : FVec Ideal S1024x20x1000 .f32) (init : FVec Ideal S_ .f32) (b : Fin 1024) (s : Fin 20) :
    Host.reduceAdd (F := Ideal) x init reducesTo_S1024x20x1000_S1024x20_d2 h_S_ (ix2 b s)
      = init (Shape.Idx.first h_S_) + ∑ v : Fin 1000, x (ix3 b s v) := by
  show Ideal.hostReduceAdd reducesTo_S1024x20x1000_S1024x20_d2 x (init (Shape.Idx.first h_S_)) (ix2 b s) = _
  rw [Ideal.hostReduceAdd_single reducesTo_S1024x20x1000_S1024x20_d2 reduces_d2]
  refine congrArg (init (Shape.Idx.first h_S_) + ·) (Finset.sum_congr rfl fun v _ => congrArg x ?_)
  funext ax; apply Fin.ext
  match ax with
  | ⟨0, _⟩ => rfl
  | ⟨1, _⟩ => rfl
  | ⟨2, _⟩ => rfl

/-! ## The broadcasts and the recast -/

section Layout
variable {α : Type}

/-- A scalar broadcast to [1024, 20, 16] reads the scalar. -/
theorem bcast0_3_apply (x : S_.Idx → α) (j : S1024x20x16.Idx) :
    broadcastInDim S1024x20x16 ![] bcast_S_S1024x20x16 x j = x ix0 :=
  broadcastInDim_apply _ _ x j ix0 (fun a => a.elim0)

/-- A scalar broadcast to [1024, 20] reads the scalar. -/
theorem bcast0_2_apply (x : S_.Idx → α) (j : S1024x20.Idx) :
    broadcastInDim S1024x20 ![] bcast_S_S1024x20 x j = x ix0 :=
  broadcastInDim_apply _ _ x j ix0 (fun a => a.elim0)

/-- [1024, 20] → [1024, 20, 1] at (b, s, 0). -/
theorem bcast_unit_apply (x : S1024x20.Idx → α) (b : Fin 1024) (s : Fin 20) (z : Fin 1) :
    broadcastInDim S1024x20x1 ![0, 1] bcast_S1024x20_S1024x20x1_0_1 x (ix3 b s z) = x (ix2 b s) :=
  broadcastInDim_apply _ _ x (ix3 b s z) (ix2 b s) (fun a => match a with | ⟨0, _⟩ => rfl | ⟨1, _⟩ => rfl)

/-- [1024, 20, 1] → [1024, 20, 16] at (b, s, e): the operand at (b, s, 0). -/
theorem bcast_chan_apply (x : S1024x20x1.Idx → α) (b : Fin 1024) (s : Fin 20) (e : Fin 16) :
    broadcastInDim S1024x20x16 ![0, 1, 2] bcast_S1024x20x1_S1024x20x16_0_1_2 x (ix3 b s e) = x (ix3 b s (0 : Fin 1)) :=
  broadcastInDim_apply _ _ x (ix3 b s e) (ix3 b s (0 : Fin 1)) (fun a => match a with | ⟨0, _⟩ => rfl | ⟨1, _⟩ => rfl | ⟨2, _⟩ => rfl)

/-- [20, 16] → [1, 20, 16] at (0, s, e). -/
theorem bcast_lead_apply (x : S20x16.Idx → α) (z : Fin 1) (s : Fin 20) (e : Fin 16) :
    broadcastInDim S1x20x16 ![1, 2] bcast_S20x16_S1x20x16_1_2 x (ix3 z s e) = x (ix2 s e) :=
  broadcastInDim_apply _ _ x (ix3 z s e) (ix2 s e) (fun a => match a with | ⟨0, _⟩ => rfl | ⟨1, _⟩ => rfl)

/-- [1, 20, 16] → [1024, 20, 16] at (b, s, e): the operand at (0, s, e). -/
theorem bcast_batch_apply (x : S1x20x16.Idx → α) (b : Fin 1024) (s : Fin 20) (e : Fin 16) :
    broadcastInDim S1024x20x16 ![0, 1, 2] bcast_S1x20x16_S1024x20x16_0_1_2 x (ix3 b s e) = x (ix3 (0 : Fin 1) s e) :=
  broadcastInDim_apply _ _ x (ix3 b s e) (ix3 (0 : Fin 1) s e) (fun a => match a with | ⟨0, _⟩ => rfl | ⟨1, _⟩ => rfl | ⟨2, _⟩ => rfl)

/-- A bias [256] → [1, 256] → [1024, 256] at (b, k): the bias at k. -/
theorem bias256_apply (x : S256.Idx → α) (b : Fin 1024) (k : Fin 256) :
    broadcastInDim S1024x256 ![0, 1] bcast_S1x256_S1024x256_0_1 (broadcastInDim S1x256 ![1] bcast_S256_S1x256_1 x) (ix2 b k) = x (ix1 k) :=
  (broadcastInDim_apply _ _ _ (ix2 b k) (ix2 (0 : Fin 1) k) (fun a => match a with | ⟨0, _⟩ => rfl | ⟨1, _⟩ => rfl)).trans
    (broadcastInDim_apply _ _ x (ix2 (0 : Fin 1) k) (ix1 k) (fun a => match a with | ⟨0, _⟩ => rfl))

/-- A bias [128] → [1, 128] → [1024, 128] at (b, j): the bias at j. -/
theorem bias128_apply (x : S128.Idx → α) (b : Fin 1024) (j : Fin 128) :
    broadcastInDim S1024x128 ![0, 1] bcast_S1x128_S1024x128_0_1 (broadcastInDim S1x128 ![1] bcast_S128_S1x128_1 x) (ix2 b j) = x (ix1 j) :=
  (broadcastInDim_apply _ _ _ (ix2 b j) (ix2 (0 : Fin 1) j) (fun a => match a with | ⟨0, _⟩ => rfl | ⟨1, _⟩ => rfl)).trans
    (broadcastInDim_apply _ _ x (ix2 (0 : Fin 1) j) (ix1 j) (fun a => match a with | ⟨0, _⟩ => rfl))

/-- [1024, 20, 16] recast as [1024, 320] at (b, q): the operand at (b, q / 16, q % 16). -/
theorem recast_apply (x : S1024x20x16.Idx → α) (b : Fin 1024) (q : Fin 320) :
    shapeCast S1024x320 x shapeCasts_S1024x20x16_S1024x320 (ix2 b q) = x (ix3 b (Cert.Spec.qpos q) (Cert.Spec.qchan q)) :=
  shapeCast_apply x _ (ix2 b q) (ix3 b (Cert.Spec.qpos q) (Cert.Spec.qchan q)) (by
    rw [Shape.rowMajor_val_three, Shape.rowMajor_val_two]
    show (b.val * 20 + q.val / 16) * 16 + q.val % 16 = b.val * 320 + q.val
    omega)

end Layout

end Cert.ReferenceIdeal.RefValue

end
-- ==== Proof.RefValue.lean ====
/-
  The reference's composed term is the specification, index by index, at the ideal values. Each stage of the
  term is read at an index given by literal coordinates, innermost first: the mask entries are the
  specification's `mk`; the scaled embedding is `emb · four` (the square root of 16 is the scale); the
  comparison bit read as a number is the indicator of a positive row sum; the recast array at feature `q`
  is the [1024, 20, 16] array at (position q / 16, channel q % 16), which is `feat`; the two dense layers are
  `hid` and `out`.
-/
import proofs.«109084_g24670292148808_cont_8to1_1333_38_alg».proof.Proof.RefRun
import proofs.«109084_g24670292148808_cont_8to1_1333_38_alg».proof.Proof.RefOps

noncomputable section

namespace Cert.ReferenceIdeal.RefValue

open Cert.ReferenceIdeal Cert.ReferenceIdeal.Gen Idealize.ShloMosaic Idealize.ShloMosaic.ValueIdx

/-- The positional table at the ideal values: the program's dense constant, word by word. -/
abbrev posIdeal : S20x16.Idx → EReal := fun i => Ideal.ofBits .f32 (lit0 (S20x16.rowMajor i))

section
variable (a0 : Vec Ideal S1024x20x1000 .i32) (a1 : Vec Ideal S1000x16 .f32) (a2 : Vec Ideal S320x256 .f32)
  (a3 : Vec Ideal S256 .f32) (a4 : Vec Ideal S256x128 .f32) (a5 : Vec Ideal S128 .f32)

/-- The program's constant read at an index is the specification's table there. -/
theorem posTable_apply (i : S20x16.Idx) : posTable (F := Ideal) i = posIdeal i := rfl

/-- A mask entry as a number. -/
theorem maskF_apply (b : Fin 1024) (s : Fin 20) (v : Fin 1000) :
    maskF (F := Ideal) a0 (ix3 b s v) = Cert.Spec.mk a0 b s v := rfl

/-- The scaled embedding at (b, s, e). -/
theorem embS_apply (b : Fin 1024) (s : Fin 20) (e : Fin 16) :
    embS (F := Ideal) a0 a1 (ix3 b s e) = Cert.Spec.emb a0 a1 b s e * Cert.Spec.four := by
  unfold embS
  rw [mulf_apply, dot3_apply, bcast0_3_apply]
  show _ * Ideal.sqrt (Ideal.ofBits .f32 0x41800000#32) = _
  rw [Cert.Spec.sqrt_sixteen]
  rfl

/-- The indicator at (b, s). -/
theorem indic_apply (b : Fin 1024) (s : Fin 20) :
    indic (F := Ideal) a0 (ix2 b s) = Cert.Spec.ind (Cert.Spec.cnt a0 b s) := by
  unfold indic
  show FloatOps.uitofp (F := Ideal) .f32 (FloatOps.cmpf .ogt
    (Host.reduceAdd (F := Ideal) (maskF a0) (constant (F := Ideal) S_ .f32 0x00000000#32) reducesTo_S1024x20x1000_S1024x20_d2 h_S_ (ix2 b s))
    (broadcastInDim S1024x20 ![] bcast_S_S1024x20 (constant (F := Ideal) S_ .f32 0x00000000#32) (ix2 b s))) = _
  rw [rowSum_apply, bcast0_2_apply, Ideal.cmpf_def, constant_apply, constant_apply, Cert.Spec.ofBits_zero, zero_add]
  exact Cert.Spec.ind_unsigned _

/-- The [1024, 20, 16] array at (b, s, e). -/
theorem feat3_apply (b : Fin 1024) (s : Fin 20) (e : Fin 16) :
    feat3 (F := Ideal) a0 a1 (ix3 b s e)
      = Cert.Spec.emb a0 a1 b s e * Cert.Spec.four + posIdeal (ix2 s e) * Cert.Spec.ind (Cert.Spec.cnt a0 b s) := by
  unfold feat3
  rw [addf_apply, mulf_apply, embS_apply, bcast_batch_apply, bcast_lead_apply, bcast_chan_apply, bcast_unit_apply,
    indic_apply, posTable_apply]

/-- Feature q of batch entry b. -/
theorem feats_apply (b : Fin 1024) (q : Fin 320) :
    feats (F := Ideal) a0 a1 (ix2 b q) = Cert.Spec.feat a0 a1 posIdeal b q := by
  unfold feats
  rw [recast_apply, feat3_apply]
  rfl

/-- The hidden layer at (b, k). -/
theorem hidden_apply (b : Fin 1024) (k : Fin 256) :
    hidden (F := Ideal) a0 a1 a2 a3 (ix2 b k) = Cert.Spec.hid a0 a1 posIdeal a2 a3 b k := by
  unfold hidden
  show Ideal.tanh (addf (Host.dotGeneral (F := Ideal) dot_S1024x320_S320x256_S1024x256_1_0_0_1_n_n none (feats a0 a1) a2)
    (broadcastInDim S1024x256 ![0, 1] bcast_S1x256_S1024x256_0_1 (broadcastInDim S1x256 ![1] bcast_S256_S1x256_1 a3)) (ix2 b k)) = _
  rw [addf_apply, dotA_apply, bias256_apply]
  refine congrArg Ideal.tanh (congrArg (· + a3 (ix1 k)) (Finset.sum_congr rfl fun q _ => ?_))
  rw [feats_apply]

/-- The output layer at (b, j). -/
theorem refVal_apply (b : Fin 1024) (j : Fin 128) :
    refVal (F := Ideal) a0 a1 a2 a3 a4 a5 (ix2 b j) = Cert.Spec.out a0 a1 posIdeal a2 a3 a4 a5 b j := by
  unfold refVal
  show Ideal.tanh (addf (Host.dotGeneral (F := Ideal) dot_S1024x256_S256x128_S1024x128_1_0_0_1_n_n none (hidden a0 a1 a2 a3) a4)
    (broadcastInDim S1024x128 ![0, 1] bcast_S1x128_S1024x128_0_1 (broadcastInDim S1x128 ![1] bcast_S128_S1x128_1 a5)) (ix2 b j)) = _
  rw [addf_apply, dotB_apply, bias128_apply]
  refine congrArg Ideal.tanh (congrArg (· + a5 (ix1 j)) (Finset.sum_congr rfl fun k _ => ?_))
  rw [hidden_apply]

/-- The run's term is the specification. -/
theorem refVal_eq :
    refVal (F := Ideal) a0 a1 a2 a3 a4 a5
      = Cert.Spec.G a0 a1 (fun i => Ideal.ofBits .f32 (lit0 (S20x16.rowMajor i))) a2 a3 a4 a5 := by
  funext i
  obtain ⟨b, j, rfl⟩ : ∃ (b : Fin 1024) (j : Fin 128), i = ix2 b j := ⟨i 0, i 1, eq_ix2 i⟩
  rw [Cert.Spec.G_ix2]
  exact refVal_apply a0 a1 a2 a3 a4 a5 b j

end

end Cert.ReferenceIdeal.RefValue

end
-- ==== Proof.lean ====
/-
  The certificate: the fused kernel and the plain reference compute the same function on the extended reals.

  Both programs take a [1024, 20, 1000] integer mask, a [1000, 16] embedding table, and the weights and biases of
  two dense layers. For every batch row b and position s they contract the mask row with the table, scale by 4
  (the reference by the square root of 16), add the positional row where the mask row's sum is positive (the kernel
  reads that sum off a column of ones joined to the table, the reference sums the row), lay the 20 × 16 numbers
  side by side as 320 features, and apply tanh (x · W0 + b0) and tanh (h · W1 + b1). `Cert.Spec.G` states that
  function once; the kernel's result array is `G` of its arguments (the eight row blocks of 128 batch rows, each
  the body's arithmetic over its blocks, cover the array), and the reference's composed term is `G` of its
  arguments, index by index. The sums are only re-indexed along bijections of their index sets; nothing is
  distributed over a sum or cancelled, so the precondition (finite inputs) is not used.

  The three frames: each kernel program runs its host operations and then the pipelined region, whose body
  obligation is discharged at a generic grid point; the reference is a straight line of host operations.
-/
import proofs.«109084_g24670292148808_cont_8to1_1333_38_alg».proof.Defs
import proofs.«109084_g24670292148808_cont_8to1_1333_38_alg».proof.Proof.Gen.Kernel
import proofs.«109084_g24670292148808_cont_8to1_1333_38_alg».proof.Proof.Gen.KernelIdeal
import proofs.«109084_g24670292148808_cont_8to1_1333_38_alg».proof.Proof.Gen.ReferenceIdeal
import proofs.«109084_g24670292148808_cont_8to1_1333_38_alg».proof.Proof.Gen.Pre_finite_inputs
import proofs.«109084_g24670292148808_cont_8to1_1333_38_alg».proof.Proof.FrameKernel
import proofs.«109084_g24670292148808_cont_8to1_1333_38_alg».proof.Proof.FrameKernelIdeal
import proofs.«109084_g24670292148808_cont_8to1_1333_38_alg».proof.Proof.KernelValue
import proofs.«109084_g24670292148808_cont_8to1_1333_38_alg».proof.Proof.RefValue

noncomputable section

namespace Cert.Proof

open Idealize.ShloMosaic Idealize.ShloMosaic.TcCoe Idealize.SL.Sem

/-- The two printed copies of the positional table are the same 320 words. -/
theorem lit0_eq : Cert.ReferenceIdeal.lit0 = Cert.KernelIdeal.lit0 :=
  funext (by decide +kernel : ∀ i : Fin 320, Cert.ReferenceIdeal.lit0 i = Cert.KernelIdeal.lit0 i)

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.RefValue.run (F := Ideal) m ρ)

/-- The kernel's result array is the specification of its arguments, the reference's composed term is the
    specification of its arguments, and the arguments agree. -/
theorem algebraic : Cert.algebraic_KernelIdeal_ReferenceIdeal := by
  intro m ρ m' ρ' _ hagree
  refine ⟨fun c => Cert.KernelIdeal.Val.Gm m c, Cert.KernelIdeal.Val.run m ρ, ?_⟩
  refine (θ_run Cert.ReferenceIdeal.defs _ _).mono (fun _ h c => ⟨(h c).1.trans ?_, (h c).2⟩)
    (Cert.ReferenceIdeal.RefValue.run (F := Ideal) m' ρ')
  rw [Cert.ReferenceIdeal.RefValue.refVal_eq, (hagree c).1, (hagree c).2.1, (hagree c).2.2.1, (hagree c).2.2.2.1,
    (hagree c).2.2.2.2.1, (hagree c).2.2.2.2.2, lit0_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
